-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S512x128 : Shape := ⟨2, ![512, 128]⟩
abbrev S_ : Shape := ⟨0, ![]⟩
abbrev S128x128 : Shape := ⟨2, ![128, 128]⟩
abbrev S1x16 : Shape := ⟨2, ![1, 16]⟩
abbrev S16 : Shape := ⟨1, ![16]⟩

abbrev nBuf : Table → Nat
  | .hbm => 2
  | .local .scVector .vmem => 1
  | _ => 0

abbrev bufTy : (tb : Table) → Fin (nBuf tb) → BufTy
  | .hbm, ⟨0, _⟩ => ⟨S16384x128, .f32⟩
  | .hbm, ⟨1, _⟩ => ⟨S16384x128, .f32⟩
  | .local .scVector .vmem, ⟨0, _⟩ => ⟨S512x128, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_2 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S512x128_S128x128_0_0 : ∀ a, (![0, 0] : Fin 2 → Nat) a + S128x128.size a ≤ S512x128.size a
  inb_S512x128_S128x128_128_0 : ∀ a, (![128, 0] : Fin 2 → Nat) a + S128x128.size a ≤ S512x128.size a
  inb_S512x128_S128x128_256_0 : ∀ a, (![256, 0] : Fin 2 → Nat) a + S128x128.size a ≤ S512x128.size a
  inb_S512x128_S128x128_384_0 : ∀ a, (![384, 0] : Fin 2 → Nat) a + S128x128.size a ≤ S512x128.size a
  inb_S512x128_S1x16_1_0 : ∀ a, (![1, 0] : Fin 2 → Nat) a + S1x16.size a ≤ S512x128.size a
  h_S1x16 : 0 < S1x16.numel
  shapeCasts_S1x16_S16 : S1x16.ShapeCasts S16
  iota_S16_d0_w32_scVector : S16.Iotas .scVector 32 [0]
  shapeCasts_S16_S1x16 : S16.ShapeCasts S1x16
  hcc0_scratch1 : 0 + S_.numel ≤ 8
  hcc0_scratch2 : 1 + S_.numel ≤ 8
  hcc0_scratch3 : 2 + S_.numel ≤ 8
  hcc0_scratch4 : 3 + S_.numel ≤ 8
  hcc0_scratch5 : 4 + S_.numel ≤ 8
  hcc0_scratch6 : 5 + S_.numel ≤ 8
  hcc0_scratch7 : 6 + S_.numel ≤ 8
  hcc0_scratch8 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (128 * r.val))) a + S128x128.size a ≤ S16384x128.size a

variable [Facts₀]

abbrev cc0_scratch1 : DmaSems sig S_ := SemArray.consecutive 0 S_ hcc0_scratch1
abbrev cc0_scratch2 : DmaSems sig S_ := SemArray.consecutive 1 S_ hcc0_scratch2
abbrev cc0_scratch3 : DmaSems sig S_ := SemArray.consecutive 2 S_ hcc0_scratch3
abbrev cc0_scratch4 : DmaSems sig S_ := SemArray.consecutive 3 S_ hcc0_scratch4
abbrev cc0_scratch5 : DmaSems sig S_ := SemArray.consecutive 4 S_ hcc0_scratch5
abbrev cc0_scratch6 : DmaSems sig S_ := SemArray.consecutive 5 S_ hcc0_scratch6
abbrev cc0_scratch7 : DmaSems sig S_ := SemArray.consecutive 6 S_ hcc0_scratch7
abbrev cc0_scratch8 : DmaSems sig S_ := SemArray.consecutive 7 S_ hcc0_scratch8

class Facts : Prop extends Facts₀ where

variable [Facts]
-- ==== ReferenceIdeal.lean ====
abbrev S16384x128 : Shape := ⟨2, ![16384, 128]⟩
abbrev S_ : Shape := ⟨0, ![]⟩
abbrev S1 : Shape := ⟨1, ![1]⟩
abbrev S2 : Shape := ⟨1, ![2]⟩

abbrev nBuf : Space → Nat
  | .hbm => 8
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S_, .i32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S2, .i32⟩
  | .hbm, ⟨6, _⟩ => ⟨S_, .f32⟩
  | .hbm, ⟨7, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S1_S2_d0 : Shape.Concatenates [S1, S1] S2 0
  scatter_S16384x128_S2_S__n_01_01_0_wf : ScatterDims.WF S16384x128 S2 S_ [] [0, 1] [0, 1] 0

variable [Facts₀]

def scatter_S16384x128_S2_S__n_01_01_0 : ScatterDims S16384x128 S2 S_ where
  updateWindowDims := []
  insertedWindowDims := [0, 1]
  scatterDimsToOperandDims := [0, 1]
  indexVectorDim := 0
  wf := scatter_S16384x128_S2_S__n_01_01_0_wf

class Facts : Prop extends Facts₀ where

variable [Facts]
-- ==== Proof.Spec.lean ====
/-
  The function both programs compute: a copy of the 16384 × 128 array in which the one entry in row 1, column 2
  is replaced by the number one and every other entry is kept.
-/
import Idealize.ShloMosaic.PureOps
import Idealize.ShloMosaic.Lib.ValueIdx

noncomputable section

namespace Cert.Spec

open Idealize.ShloMosaic

variable {F : FTy → Type} [FloatOps F]

/-- The shape of the argument and of the result. -/
abbrev SX : Shape := ⟨2, ![16384, 128]⟩

/-- The number one as the 32-bit float word both programs write. -/
def one : F .f32 := FloatOps.ofBits .f32 0x3F800000#32

/-- The array `x` with its entry at row 1, column 2 replaced by one. -/
def G (x : SX.Idx → F .f32) : SX.Idx → F .f32 :=
  fun i => if (i 0).val = 1 ∧ (i 1).val = 2 then one else x i

theorem G_hit (x : SX.Idx → F .f32) (i : SX.Idx) (h0 : (i 0).val = 1) (h1 : (i 1).val = 2) : G x i = one := by
  unfold G; rw [if_pos ⟨h0, h1⟩]

theorem G_miss (x : SX.Idx → F .f32) (i : SX.Idx) (h : ¬ ((i 0).val = 1 ∧ (i 1).val = 2)) : G x i = x i := by
  unfold G; rw [if_neg h]

end Cert.Spec

end
-- ==== Proof.RefValue.lean ====
/-
  The reference program's result as a function of its argument: the scatter of the one update (the number one)
  at the one index vector (1, 2) is the argument with its entry at row 1, column 2 replaced by one.
-/
import proofs.«209185_g61933428412696_cont_9to1_m_910_4_alg».proof.Proof.Gen.ReferenceIdeal.Read
import proofs.«209185_g61933428412696_cont_9to1_m_910_4_alg».proof.Proof.Spec

noncomputable section

namespace Cert.RefValue

open Idealize.ShloMosaic Cert.ReferenceIdeal Cert.ReferenceIdeal.Read

variable {F : FTy → Type} [FloatOps F]

/-- The window start on the row axis is the first component of the index vector, 1. -/
theorem start_row (j : S_.Idx) :
    scatter_S16384x128_S2_S__n_01_01_0.start j (val_main_v2 (F := F)) 0 = 1 := rfl

/-- The window start on the column axis is the second component of the index vector, 2. -/
theorem start_col (j : S_.Idx) :
    scatter_S16384x128_S2_S__n_01_01_0.start j (val_main_v2 (F := F)) 1 = 2 := rfl

/-- Both axes are inserted window axes: the window coordinate is 0 on each. -/
theorem window_row (j : S_.Idx) : scatter_S16384x128_S2_S__n_01_01_0.window j 0 = 0 := rfl
theorem window_col (j : S_.Idx) : scatter_S16384x128_S2_S__n_01_01_0.window j 1 = 0 := rfl

/-- The one update lands inside the array, at row 1, column 2. -/
theorem result_idx (j : S_.Idx) :
    ∃ i : S16384x128.Idx, scatter_S16384x128_S2_S__n_01_01_0.resultIdx? j (val_main_v2 (F := F)) = some i
      ∧ (i 0).val = 1 ∧ (i 1).val = 2 := by
  have h : ∀ a : Fin S16384x128.rank,
      0 ≤ scatter_S16384x128_S2_S__n_01_01_0.start j (val_main_v2 (F := F)) a
            + scatter_S16384x128_S2_S__n_01_01_0.window j a
      ∧ scatter_S16384x128_S2_S__n_01_01_0.start j (val_main_v2 (F := F)) a
            + scatter_S16384x128_S2_S__n_01_01_0.window j a < S16384x128.size a := by
    intro a
    match a with
    | ⟨0, _⟩ =>
      show 0 ≤ scatter_S16384x128_S2_S__n_01_01_0.start j (val_main_v2 (F := F)) 0
            + ((scatter_S16384x128_S2_S__n_01_01_0.window j 0 : Nat) : Int)
        ∧ scatter_S16384x128_S2_S__n_01_01_0.start j (val_main_v2 (F := F)) 0
            + ((scatter_S16384x128_S2_S__n_01_01_0.window j 0 : Nat) : Int) < ((16384 : Nat) : Int)
      rw [start_row, window_row]; decide
    | ⟨1, _⟩ =>
      show 0 ≤ scatter_S16384x128_S2_S__n_01_01_0.start j (val_main_v2 (F := F)) 1
            + ((scatter_S16384x128_S2_S__n_01_01_0.window j 1 : Nat) : Int)
        ∧ scatter_S16384x128_S2_S__n_01_01_0.start j (val_main_v2 (F := F)) 1
            + ((scatter_S16384x128_S2_S__n_01_01_0.window j 1 : Nat) : Int) < ((128 : Nat) : Int)
      rw [start_col, window_col]; decide
  refine ⟨_, dif_pos h, ?_, ?_⟩
  · show (scatter_S16384x128_S2_S__n_01_01_0.start j (val_main_v2 (F := F)) 0
            + ((scatter_S16384x128_S2_S__n_01_01_0.window j 0 : Nat) : Int)).toNat = 1
    rw [start_row, window_row]; rfl
  · show (scatter_S16384x128_S2_S__n_01_01_0.start j (val_main_v2 (F := F)) 1
            + ((scatter_S16384x128_S2_S__n_01_01_0.window j 1 : Nat) : Int)).toNat = 2
    rw [start_col, window_col]; rfl

/-- The reference's result is the argument with the entry at row 1, column 2 replaced by one. -/
theorem ref_eq (x : (⟨S16384x128, .f32⟩ : BufTy).Contents (Elt F)) :
    val_main_v3 (F := F) x = Cert.Spec.G x := by
  unfold val_main_v3 Host.scatter
  have hfr : List.finRange S_.numel = [(⟨0, by decide⟩ : Fin S_.numel)] := by decide
  rw [hfr, List.foldl_cons, List.foldl_nil]
  beta_reduce
  generalize (Shape.rowMajor S_).symm _ = j0
  obtain ⟨i0, hi0, h0, h1⟩ := result_idx (F := F) j0
  rw [hi0]
  funext i
  show (if i = i0 then val_main_cst (F := F) j0 else x i) = Cert.Spec.G x i
  unfold Cert.Spec.G
  by_cases hc : (i 0).val = 1 ∧ (i 1).val = 2
  · have e : i = i0 := by
      funext a
      match a with
      | ⟨0, _⟩ => exact Fin.ext (hc.1.trans h0.symm)
      | ⟨1, _⟩ => exact Fin.ext (hc.2.trans h1.symm)
    rw [if_pos e, if_pos hc]; rfl
  · have e : ¬ i = i0 := fun e => hc (by rw [e]; exact ⟨h0, h1⟩)
    rw [if_neg e, if_neg hc]

end Cert.RefValue

end
-- ==== Proof.K.Setup.lean ====
/-
  The copy kernel as the launch theorem sees it, and the row blocks it is handed.

  The 16384 rows are cut into 128 blocks of 128 rows. The vector subcore at SparseCore `c`, position `s` moves
  the four consecutive blocks `8 s + 4 c + r` (`r = 0 … 3`): rows `512 (2 s + c) + 128 r` onwards, first into
  rows `128 r` onwards of its own 512-row scratch, then out to the same rows of the result.
-/
import proofs.«209185_g61933428412696_cont_9to1_m_910_4_alg».proof.Defs
import Idealize.ShloMosaic.Lib.SparseCore.Launch
import Idealize.ShloMosaic.Lib.StableHlo.Run
import Idealize.ShloMosaic.Lib.Pipeline.Kit
import Idealize.ShloMosaic.Lib.Tactic
import proofs.«209185_g61933428412696_cont_9to1_m_910_4_alg».proof.Proof.Gen.Kernel
import proofs.«209185_g61933428412696_cont_9to1_m_910_4_alg».proof.Proof.Gen.Kernel.Skeleton
import proofs.«209185_g61933428412696_cont_9to1_m_910_4_alg».proof.Proof.Spec

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

abbrev EH : Emb UH (MT nD τ sig (HIx 1) (Elt F) ℕ UU ℕ) := embL

/-! ## The arrays and the row blocks -/

abbrev xLoc (d : Dev nD) : Loc nD τ sig := (SparseCore.T d).loc main_arg0
abbrev oLoc (d : Dev nD) : Loc nD τ sig := (SparseCore.T d).loc main_v0

/-- The argument, the result and a vector subcore's scratch, as the kernel's body is handed them. -/
abbrev xW : Memref sig .scVector .hbm S16384x128 .f32 := Memref.whole main_arg0_scv
abbrev oW : Memref sig .scVector .hbm S16384x128 .f32 := Memref.whole main_v0_scv
abbrev bW : Memref sig .scVector .vmem S512x128 .f32 := Memref.whole cc0_scratch0

theorem hdiv : 128 ∣ S16384x128.size 0 := ⟨128, rfl⟩
/-- Block `n` of the 128: rows `128 n … 128 n + 127`, all columns. -/
abbrev blkR (n : Fin 128) : Rect S16384x128 := Rect.part (s := S16384x128) (a₀ := 0) hdiv n
abbrev blk (n : Fin 128) : Finset S16384x128.Idx := ((xW : Memref sig .scVector .hbm S16384x128 .f32).view.slice (blkR n)).set

theorem blk_eq (n : Fin 128) : blk n = (blkR n).set := by
  show ((View.whole (main_arg0_scv : Ref sig .scVector)).slice (blkR n)).set = _
  rw [View.set_slice]; exact Finset.map_refl
theorem blk_disjoint : ∀ i ∈ (Finset.univ : Finset (Fin 128)), ∀ j ∈ (Finset.univ : Finset (Fin 128)), i ≠ j → Disjoint (blk i) (blk j) :=
  fun i _ j _ h => by rw [blk_eq, blk_eq]; exact Rect.part_disjoint hdiv h
theorem blk_cover : (Finset.univ : Finset (Fin 128)).biUnion blk = Finset.univ :=
  (Finset.biUnion_congr rfl fun i _ => blk_eq i).trans (Rect.biUnion_part hdiv)

theorem mem_blk {n : Fin 128} {i : S16384x128.Idx} : i ∈ blk n ↔ 128 * n.val ≤ (i 0).val ∧ (i 0).val < 128 * n.val + 128 := by
  rw [blk_eq, Rect.mem_set_unit, Fin.forall_fin_two]
  have h1 : (i 1).val < 128 := (i 1).isLt
  have hs : S16384x128.size 0 / 128 = 128 := by decide
  have hs1 : S16384x128.size 1 = 128 := rfl
  have e0 : (![16384, 128] : Fin 2 → ℕ) 0 = 16384 := rfl
  have e1 : (![16384, 128] : Fin 2 → ℕ) 1 = 128 := rfl
  simp only [Shape.partIx, Shape.partSize, if_true, hs, hs1, show ¬ ((1 : Fin 2) = 0) by decide, if_false, e0, e1]
  omega

/-- Block number `n` as a natural: nothing beyond the 128. -/
def blkN (n : ℕ) : Finset S16384x128.Idx := if h : n < 128 then blk ⟨n, h⟩ else ∅

/-- The block that the vector subcore at SparseCore `c`, position `s` moves as its piece `r`. -/
abbrev pcN (c s r : ℕ) : ℕ := 8 * s + 4 * c + r

end Cert.Proof.K

end
-- ==== Proof.K.Pieces.lean ====
/-
  The pieces a vector subcore's task moves, named as its body slices them: four 128-row blocks of the argument,
  the same four of the result, and the four quarters of its scratch.
-/
import proofs.«209185_g61933428412696_cont_9to1_m_910_4_alg».proof.Proof.K.Setup

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (L : grid0.Coords)

abbrev cV (L : grid0.Coords) : Fin τ.nSC := (L 0).castLE hcore0
abbrev jV (L : grid0.Coords) : Fin τ.nSub := (L 1).castLE hsub0

/-! ## The slices, in the body's spelling -/

abbrev xS0 (L : grid0.Coords) : Memref sig .scVector .hbm S128x128 .f32 :=
  (xW : Memref sig .scVector .hbm S16384x128 .f32).slice (Rect.unit (s := S16384x128) (k0_off1 L 0#32) S128x128.size (k0_off1_inb L 0)) (fun _ => rfl)
abbrev oS0 (L : grid0.Coords) : Memref sig .scVector .hbm S128x128 .f32 :=
  (oW : Memref sig .scVector .hbm S16384x128 .f32).slice (Rect.unit (s := S16384x128) (k0_off1 L 0#32) S128x128.size (k0_off1_inb L 0)) (fun _ => rfl)
abbrev bS0 : Memref sig .scVector .vmem S128x128 .f32 :=
  (bW : Memref sig .scVector .vmem S512x128 .f32).slice (Rect.unit (s := S512x128) ![0, 0] S128x128.size inb_S512x128_S128x128_0_0) (fun _ => rfl)
abbrev xS1 (L : grid0.Coords) : Memref sig .scVector .hbm S128x128 .f32 :=
  (xW : Memref sig .scVector .hbm S16384x128 .f32).slice (Rect.unit (s := S16384x128) (k0_off1 L 128#32) S128x128.size (k0_off1_inb L 1)) (fun _ => rfl)
abbrev oS1 (L : grid0.Coords) : Memref sig .scVector .hbm S128x128 .f32 :=
  (oW : Memref sig .scVector .hbm S16384x128 .f32).slice (Rect.unit (s := S16384x128) (k0_off1 L 128#32) S128x128.size (k0_off1_inb L 1)) (fun _ => rfl)
abbrev bS1 : Memref sig .scVector .vmem S128x128 .f32 :=
  (bW : Memref sig .scVector .vmem S512x128 .f32).slice (Rect.unit (s := S512x128) ![128, 0] S128x128.size inb_S512x128_S128x128_128_0) (fun _ => rfl)
abbrev xS2 (L : grid0.Coords) : Memref sig .scVector .hbm S128x128 .f32 :=
  (xW : Memref sig .scVector .hbm S16384x128 .f32).slice (Rect.unit (s := S16384x128) (k0_off1 L 256#32) S128x128.size (k0_off1_inb L 2)) (fun _ => rfl)
abbrev oS2 (L : grid0.Coords) : Memref sig .scVector .hbm S128x128 .f32 :=
  (oW : Memref sig .scVector .hbm S16384x128 .f32).slice (Rect.unit (s := S16384x128) (k0_off1 L 256#32) S128x128.size (k0_off1_inb L 2)) (fun _ => rfl)
abbrev bS2 : Memref sig .scVector .vmem S128x128 .f32 :=
  (bW : Memref sig .scVector .vmem S512x128 .f32).slice (Rect.unit (s := S512x128) ![256, 0] S128x128.size inb_S512x128_S128x128_256_0) (fun _ => rfl)
abbrev xS3 (L : grid0.Coords) : Memref sig .scVector .hbm S128x128 .f32 :=
  (xW : Memref sig .scVector .hbm S16384x128 .f32).slice (Rect.unit (s := S16384x128) (k0_off1 L 384#32) S128x128.size (k0_off1_inb L 3)) (fun _ => rfl)
abbrev oS3 (L : grid0.Coords) : Memref sig .scVector .hbm S128x128 .f32 :=
  (oW : Memref sig .scVector .hbm S16384x128 .f32).slice (Rect.unit (s := S16384x128) (k0_off1 L 384#32) S128x128.size (k0_off1_inb L 3)) (fun _ => rfl)
abbrev bS3 : Memref sig .scVector .vmem S128x128 .f32 :=
  (bW : Memref sig .scVector .vmem S512x128 .f32).slice (Rect.unit (s := S512x128) ![384, 0] S128x128.size inb_S512x128_S128x128_384_0) (fun _ => rfl)

/-! ## The blocks of the argument and of the result -/

theorem pc_lt (r : Fin 4) : pcN (L 0).val (L 1).val r.val < 128 := by
  have h0 : (L 0).val < 2 := (L 0).isLt
  have h1 : (L 1).val < 16 := (L 1).isLt
  have hr := r.isLt
  unfold pcN; omega

/-- The rectangle the body slices for piece `r` is block `8 s + 4 c + r`. -/
theorem rect_eq (r : Fin 4) :
    Rect.unit (s := S16384x128) (k0_off1 L (BitVec.ofNat 32 (128 * r.val))) S128x128.size (k0_off1_inb L r)
      = blkR ⟨pcN (L 0).val (L 1).val r.val, pc_lt L r⟩ := by
  unfold blkR Rect.part Rect.block
  congr 1 <;> funext a
  · rw [k0_off1_eq]
    match a with
    | 0 => simp [Shape.partIx, Shape.partSize, pcN]; omega
    | 1 => simp [Shape.partIx, Shape.partSize]
  · match a with
    | 0 => simp [Shape.partSize]
    | 1 => simp [Shape.partSize]

theorem oblk_eq (n : Fin 128) : ((oW : Memref sig .scVector .hbm S16384x128 .f32).view.slice (blkR n)).set = blk n := by
  rw [blk_eq]
  show ((View.whole (main_v0_scv : Ref sig .scVector)).slice (blkR n)).set = _
  rw [View.set_slice]; exact Finset.map_refl

theorem blkN_pc (r : Fin 4) : blkN (pcN (L 0).val (L 1).val r.val) = blk ⟨pcN (L 0).val (L 1).val r.val, pc_lt L r⟩ := by
  unfold blkN; rw [dif_pos (pc_lt L r)]

theorem set_xS0 : (xS0 L).view.set = blkN (pcN (L 0).val (L 1).val 0) := by
  show ((xW : Memref sig .scVector .hbm S16384x128 .f32).view.slice
    (Rect.unit (s := S16384x128) (k0_off1 L (BitVec.ofNat 32 (128 * (0 : Fin 4).val))) S128x128.size (k0_off1_inb L 0))).set = _
  rw [rect_eq L 0]; exact (blkN_pc L 0).symm
theorem set_oS0 : (oS0 L).view.set = blkN (pcN (L 0).val (L 1).val 0) := by
  show ((oW : Memref sig .scVector .hbm S16384x128 .f32).view.slice
    (Rect.unit (s := S16384x128) (k0_off1 L (BitVec.ofNat 32 (128 * (0 : Fin 4).val))) S128x128.size (k0_off1_inb L 0))).set = _
  rw [rect_eq L 0, oblk_eq]; exact (blkN_pc L 0).symm
theorem set_xS1 : (xS1 L).view.set = blkN (pcN (L 0).val (L 1).val 1) := by
  show ((xW : Memref sig .scVector .hbm S16384x128 .f32).view.slice
    (Rect.unit (s := S16384x128) (k0_off1 L (BitVec.ofNat 32 (128 * (1 : Fin 4).val))) S128x128.size (k0_off1_inb L 1))).set = _
  rw [rect_eq L 1]; exact (blkN_pc L 1).symm
theorem set_oS1 : (oS1 L).view.set = blkN (pcN (L 0).val (L 1).val 1) := by
  show ((oW : Memref sig .scVector .hbm S16384x128 .f32).view.slice
    (Rect.unit (s := S16384x128) (k0_off1 L (BitVec.ofNat 32 (128 * (1 : Fin 4).val))) S128x128.size (k0_off1_inb L 1))).set = _
  rw [rect_eq L 1, oblk_eq]; exact (blkN_pc L 1).symm
theorem set_xS2 : (xS2 L).view.set = blkN (pcN (L 0).val (L 1).val 2) := by
  show ((xW : Memref sig .scVector .hbm S16384x128 .f32).view.slice
    (Rect.unit (s := S16384x128) (k0_off1 L (BitVec.ofNat 32 (128 * (2 : Fin 4).val))) S128x128.size (k0_off1_inb L 2))).set = _
  rw [rect_eq L 2]; exact (blkN_pc L 2).symm
theorem set_oS2 : (oS2 L).view.set = blkN (pcN (L 0).val (L 1).val 2) := by
  show ((oW : Memref sig .scVector .hbm S16384x128 .f32).view.slice
    (Rect.unit (s := S16384x128) (k0_off1 L (BitVec.ofNat 32 (128 * (2 : Fin 4).val))) S128x128.size (k0_off1_inb L 2))).set = _
  rw [rect_eq L 2, oblk_eq]; exact (blkN_pc L 2).symm
theorem set_xS3 : (xS3 L).view.set = blkN (pcN (L 0).val (L 1).val 3) := by
  show ((xW : Memref sig .scVector .hbm S16384x128 .f32).view.slice
    (Rect.unit (s := S16384x128) (k0_off1 L (BitVec.ofNat 32 (128 * (3 : Fin 4).val))) S128x128.size (k0_off1_inb L 3))).set = _
  rw [rect_eq L 3]; exact (blkN_pc L 3).symm
theorem set_oS3 : (oS3 L).view.set = blkN (pcN (L 0).val (L 1).val 3) := by
  show ((oW : Memref sig .scVector .hbm S16384x128 .f32).view.slice
    (Rect.unit (s := S16384x128) (k0_off1 L (BitVec.ofNat 32 (128 * (3 : Fin 4).val))) S128x128.size (k0_off1_inb L 3))).set = _
  rw [rect_eq L 3, oblk_eq]; exact (blkN_pc L 3).symm

/-! ## The quarters of the scratch -/

theorem hdiv4 : 4 ∣ S512x128.size 0 := ⟨128, rfl⟩
abbrev qR (r : Fin 4) : Rect S512x128 := Rect.part (s := S512x128) (a₀ := 0) hdiv4 r
abbrev qSet (r : Fin 4) : Finset S512x128.Idx := ((bW : Memref sig .scVector .vmem S512x128 .f32).view.slice (qR r)).set

theorem qSet_eq (r : Fin 4) : qSet r = (qR r).set := by
  show ((View.whole (cc0_scratch0 : Ref sig .scVector)).slice (qR r)).set = _
  rw [View.set_slice]; exact Finset.map_refl
theorem q_disjoint : ∀ i ∈ (Finset.univ : Finset (Fin 4)), ∀ j ∈ (Finset.univ : Finset (Fin 4)), i ≠ j → Disjoint (qSet i) (qSet j) :=
  fun i _ j _ h => by rw [qSet_eq, qSet_eq]; exact Rect.part_disjoint hdiv4 h
theorem q_cover : (Finset.univ : Finset (Fin 4)).biUnion qSet = Finset.univ :=
  (Finset.biUnion_congr rfl fun i _ => qSet_eq i).trans (Rect.biUnion_part hdiv4)

theorem qrect0 : Rect.unit (s := S512x128) ![0, 0] S128x128.size inb_S512x128_S128x128_0_0 = qR 0 := by
  unfold qR Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem set_bS0 : (bS0).view.set = qSet 0 := by
  show ((bW : Memref sig .scVector .vmem S512x128 .f32).view.slice (Rect.unit (s := S512x128) ![0, 0] S128x128.size inb_S512x128_S128x128_0_0)).set = _
  rw [qrect0]
theorem qrect1 : Rect.unit (s := S512x128) ![128, 0] S128x128.size inb_S512x128_S128x128_128_0 = qR 1 := by
  unfold qR Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem set_bS1 : (bS1).view.set = qSet 1 := by
  show ((bW : Memref sig .scVector .vmem S512x128 .f32).view.slice (Rect.unit (s := S512x128) ![128, 0] S128x128.size inb_S512x128_S128x128_128_0)).set = _
  rw [qrect1]
theorem qrect2 : Rect.unit (s := S512x128) ![256, 0] S128x128.size inb_S512x128_S128x128_256_0 = qR 2 := by
  unfold qR Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem set_bS2 : (bS2).view.set = qSet 2 := by
  show ((bW : Memref sig .scVector .vmem S512x128 .f32).view.slice (Rect.unit (s := S512x128) ![256, 0] S128x128.size inb_S512x128_S128x128_256_0)).set = _
  rw [qrect2]
theorem qrect3 : Rect.unit (s := S512x128) ![384, 0] S128x128.size inb_S512x128_S128x128_384_0 = qR 3 := by
  unfold qR Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem set_bS3 : (bS3).view.set = qSet 3 := by
  show ((bW : Memref sig .scVector .vmem S512x128 .f32).view.slice (Rect.unit (s := S512x128) ![384, 0] S128x128.size inb_S512x128_S128x128_384_0)).set = _
  rw [qrect3]

end Cert.Proof.K

end
-- ==== Proof.PayAt.lean ====
/-
  The kernel's one computed vector, read lane by lane: the sixteen loaded lanes with lane 2 replaced by the
  number one.
-/
import proofs.«209185_g61933428412696_cont_9to1_m_910_4_alg».proof.Proof.Gen.KernelIdeal.Skeleton
import proofs.«209185_g61933428412696_cont_9to1_m_910_4_alg».proof.Proof.Gen.Kernel.Skeleton
import proofs.«209185_g61933428412696_cont_9to1_m_910_4_alg».proof.Proof.Spec
import Idealize.ShloMosaic.Lib.Pipeline.Value

noncomputable section

namespace Cert.PayAt

open Idealize.ShloMosaic

variable {F : FTy → Type} [FloatOps F]

/-- Below sixteen, a lane number equals two as a 32-bit word exactly when it is two. -/
theorem lane_word (n : Nat) (h : n < 16) : BitVec.ofNat 32 n = 2#32 ↔ n = 2 := by
  constructor
  · intro e
    have e' := congrArg BitVec.toNat e
    simp only [BitVec.toNat_ofNat] at e'
    omega
  · intro e; rw [e]

/-- The comparison of a lane number below sixteen with two, as a one-bit word. -/
theorem cmp_lane (n : Nat) (h : n < 16) :
    (IntOp.cmpi .eq (BitVec.ofNat 32 n) 2#32 = 1) ↔ n = 2 := by
  show BitVec.ofBool (BitVec.ofNat 32 n == 2#32) = 1 ↔ n = 2
  by_cases e : n = 2
  · subst e; exact ⟨fun _ => rfl, fun _ => by decide⟩
  · have hne : ¬ BitVec.ofNat 32 n = 2#32 := fun h' => e ((lane_word n h).1 h')
    have hb : (BitVec.ofNat 32 n == 2#32) = false := beq_eq_false_iff_ne.2 hne
    rw [hb]
    exact ⟨fun h' => absurd h' (by decide), fun h' => absurd h' e⟩

/-- A vector of shape 1 × 16 viewed as sixteen lanes, lane 2 replaced by one, viewed again as 1 × 16:
    at each index, one where the lane is 2 and the vector's own element elsewhere. -/
theorem core (v : (⟨2, ![1, 16]⟩ : Shape).Idx → F .f32)
    (h1 : (⟨2, ![1, 16]⟩ : Shape).ShapeCasts ⟨1, ![16]⟩)
    (hi : (⟨1, ![16]⟩ : Shape).Iotas .scVector 32 [0])
    (h2 : (⟨1, ![16]⟩ : Shape).ShapeCasts ⟨2, ![1, 16]⟩)
    (j : (⟨2, ![1, 16]⟩ : Shape).Idx) :
    shapeCast ⟨2, ![1, 16]⟩
      (select (cmpi .eq (iota .scVector ⟨1, ![16]⟩ 32 [0] hi) (broadcast ⟨1, ![16]⟩ 2#32))
        (broadcast ⟨1, ![16]⟩ (Scalar.ofBits .f32 0x3F800000#32 : F .f32))
        (shapeCast ⟨1, ![16]⟩ v h1)) h2 j
      = if (j 1).val = 2 then Cert.Spec.one else v j := by
  refine (shapeCast_addUnit_apply ![16] _ h2 j).trans ?_
  -- the lane read is lane `j 1`
  let k : (⟨1, ![16]⟩ : Shape).Idx := fun a => j a.succ
  have hlt : (j 1).val < 16 := (j 1).isLt
  have hio : iota .scVector (⟨1, ![16]⟩ : Shape) 32 [0] hi k = BitVec.ofNat 32 (j 1).val :=
    iota_single_apply .scVector ⟨1, ![16]⟩ 32 0 hi k
  -- the inner view reads the vector at `(0, j 1)`, which is `j`
  have hv : shapeCast ⟨1, ![16]⟩ v h1 k = v j := by
    refine (shapeCast_dropUnit_apply ![16] v h1 _).trans ?_
    congr 1
    funext a
    refine Fin.cases ?_ (fun b => ?_) a
    · apply Fin.ext
      have := (j 0).isLt
      show 0 = (j 0).val
      simp at this
      omega
    · rfl
  show Scalar.select (IntOp.cmpi .eq (iota .scVector ⟨1, ![16]⟩ 32 [0] hi k) 2#32)
      (Scalar.ofBits .f32 0x3F800000#32 : F .f32) (shapeCast ⟨1, ![16]⟩ v h1 k) = _
  rw [hio, hv]
  unfold Scalar.select
  by_cases e : (j 1).val = 2
  · rw [if_pos ((cmp_lane _ hlt).2 e), if_pos e]; rfl
  · rw [if_neg (fun h' => e ((cmp_lane _ hlt).1 h')), if_neg e]

/-- The computed vector of the idealised kernel, at an index. -/
theorem pay_ki (v : Vec F Cert.KernelIdeal.S1x16 .f32) (j : Cert.KernelIdeal.S1x16.Idx) :
    Cert.KernelIdeal.Gen.k0_pay1 v j = if (j 1).val = 2 then Cert.Spec.one else v j :=
  core v _ _ _ j

/-- The computed vector of the kernel, at an index. -/
theorem pay_k (v : Vec F Cert.Kernel.S1x16 .f32) (j : Cert.Kernel.S1x16.Idx) :
    Cert.Kernel.Gen.k0_pay1 v j = if (j 1).val = 2 then Cert.Spec.one else v j :=
  core v _ _ _ j

end Cert.PayAt

end
-- ==== Proof.K.Moved.lean ====
/-
  What a block holds after its two moves. A block fetched whole into a quarter of the scratch and sent whole to the same
  rows of the result arrives as it was in the argument; for the block that holds row 1, with the sixteen leading lanes of
  that row rewritten in the scratch between the two moves, it arrives with lane 2 of row 1 replaced by one.
-/
import proofs.«209185_g61933428412696_cont_9to1_m_910_4_alg».proof.Proof.K.Setup
import proofs.«209185_g61933428412696_cont_9to1_m_910_4_alg».proof.Proof.K.Pieces
import proofs.«209185_g61933428412696_cont_9to1_m_910_4_alg».proof.Proof.PayAt

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- One whole-shape write through a view leaves the payload under each of the view's indices. -/
theorem writes_whole_emb {sig : RefSig} {κ : Kind} {sp : Space} {s : Shape} {e : EltTy} {Val : EltTy → Type}
    (v : View sig κ sp s e) (f : v.ty.Contents Val) (w : s.Idx → Val e) (y : s.Idx) :
    v.writes Val f [(⟨Rect.whole s, w⟩ : View.Piece Val s e)] (v.emb y) = _root_.cast (congrArg Val v.elt_eq.symm) (w y) := by
  rw [View.writes_singleton]
  have h := View.write_emb_of_mem (v := v.slice (Rect.whole s)) (Val := Val) f w (M := Finset.univ) (x := y) (Finset.mem_univ _)
  have he : (v.slice (Rect.whole s)).emb y = v.emb y := by
    show v.emb ((Rect.whole s).emb y) = v.emb y
    rw [Rect.emb_whole_apply]
  rw [he] at h
  exact h

/-- A 128-row block of the argument, of the result and of the scratch, at any offsets. -/
abbrev xSl (offx : Fin 2 → ℕ) (hx : ∀ a, offx a + S128x128.size a ≤ S16384x128.size a) : Memref sig .scVector .hbm S128x128 .f32 :=
  (xW : Memref sig .scVector .hbm S16384x128 .f32).slice (Rect.unit (s := S16384x128) offx S128x128.size hx) (fun _ => rfl)
abbrev oSl (offx : Fin 2 → ℕ) (hx : ∀ a, offx a + S128x128.size a ≤ S16384x128.size a) : Memref sig .scVector .hbm S128x128 .f32 :=
  (oW : Memref sig .scVector .hbm S16384x128 .f32).slice (Rect.unit (s := S16384x128) offx S128x128.size hx) (fun _ => rfl)
abbrev bSl (offb : Fin 2 → ℕ) (hb : ∀ a, offb a + S128x128.size a ≤ S512x128.size a) : Memref sig .scVector .vmem S128x128 .f32 :=
  (bW : Memref sig .scVector .vmem S512x128 .f32).slice (Rect.unit (s := S512x128) offb S128x128.size hb) (fun _ => rfl)

/-- Fetched and sent on untouched, a block of the result holds the argument's entries. -/
theorem moved (d : Dev nD) (c : Fin τ.nSC) (j : Fin τ.nSub) (offx : Fin 2 → ℕ) (hx : ∀ a, offx a + S128x128.size a ≤ S16384x128.size a)
    (offb : Fin 2 → ℕ) (hb : ∀ a, offb a + S128x128.size a ≤ S512x128.size a)
    (fo : Buf (Elt F) (oLoc d)) (fx : Buf (Elt F) (xLoc d)) (fb : Buf (Elt F) ((V d c j).loc cc0_scratch0))
    (i : S16384x128.Idx) (hi : i ∈ (oSl offx hx).view.set) :
    ((oSl offx hx).view.writes (Elt F) fo
      [⟨Rect.whole S128x128, ReadAs.same.apply (View.read (Elt F) (bSl offb hb).view
        ((bSl offb hb).view.writes (Elt F) fb
          [⟨Rect.whole S128x128, ReadAs.same.apply (View.read (Elt F) (xSl offx hx).view fx)⟩]))⟩]) i
      = fx i := by
  obtain ⟨y, -, rfl⟩ := Finset.mem_map.mp hi
  refine (writes_whole_emb (Val := Elt F) (oSl offx hx).view fo _ y).trans ?_
  rw [ReadAs.apply_same, View.read_apply]
  rw [writes_whole_emb (Val := Elt F) (bSl offb hb).view fb _ y]
  rw [ReadAs.apply_same, View.read_apply]
  simp only [cast_cast, cast_eq]
  rfl

/-- The sixteen leading lanes of row 1 of the scratch. -/
abbrev R16 : Rect S512x128 := Rect.unit (s := S512x128) ![1, 0] S1x16.size inb_S512x128_S1x16_1_0

theorem emb_b (offb : Fin 2 → ℕ) (hb : ∀ a, offb a + S128x128.size a ≤ S512x128.size a) (y : S128x128.Idx) (a : Fin 2) :
    (((bSl offb hb).view.emb y : S512x128.Idx) a).val = offb a + 1 * (y a).val := rfl
theorem emb_o (offx : Fin 2 → ℕ) (hx : ∀ a, offx a + S128x128.size a ≤ S16384x128.size a) (y : S128x128.Idx) (a : Fin 2) :
    (((oSl offx hx).view.emb y : S16384x128.Idx) a).val = offx a + 1 * (y a).val := rfl
theorem emb_16 (z : S1x16.Idx) (a : Fin 2) :
    ((((bW : Memref sig .scVector .vmem S512x128 .f32).access R16).emb z : S512x128.Idx) a).val = (![1, 0] : Fin 2 → ℕ) a + 1 * (z a).val := rfl
theorem idx_16 (z : S1x16.Idx) (a : Fin 2) :
    ((R16.toLoadRect.idx z : S512x128.Idx) a).val = (![1, 0] : Fin 2 → ℕ) a + 1 * (z a).val := rfl

/-- The block that holds row 1, with the leading lanes of that row rewritten between its two moves, holds in the
    result the argument's entries but for one at row 1, lane 2. -/
theorem moved_first (d : Dev nD) (c : Fin τ.nSC) (j : Fin τ.nSub) (offx : Fin 2 → ℕ) (hx : ∀ a, offx a + S128x128.size a ≤ S16384x128.size a)
    (h0 : offx 0 = 0) (h1 : offx 1 = 0) (hb : ∀ a, (![0, 0] : Fin 2 → ℕ) a + S128x128.size a ≤ S512x128.size a)
    (fo : Buf (Elt F) (oLoc d)) (fx : Buf (Elt F) (xLoc d)) (fb : Buf (Elt F) ((V d c j).loc cc0_scratch0))
    (i : S16384x128.Idx) (hi : i ∈ (oSl offx hx).view.set) :
    ((oSl offx hx).view.writes (Elt F) fo
      [⟨Rect.whole S128x128, ReadAs.same.apply (View.read (Elt F) (bSl ![0, 0] hb).view
        (View.write (Elt F) ((bW : Memref sig .scVector .vmem S512x128 .f32).access R16)
          ((bSl ![0, 0] hb).view.writes (Elt F) fb
            [⟨Rect.whole S128x128, ReadAs.same.apply (View.read (Elt F) (xSl offx hx).view fx)⟩])
          (k0_pay1 (View.readAt (Elt F) (bW : Memref sig .scVector .vmem S512x128 .f32).view R16.toLoadRect
            ((bSl ![0, 0] hb).view.writes (Elt F) fb
              [⟨Rect.whole S128x128, ReadAs.same.apply (View.read (Elt F) (xSl offx hx).view fx)⟩])))
          Finset.univ))⟩]) i
      = Cert.Spec.G fx i := by
  obtain ⟨y, -, rfl⟩ := Finset.mem_map.mp hi
  refine (writes_whole_emb (Val := Elt F) (oSl offx hx).view fo _ y).trans ?_
  rw [ReadAs.apply_same, View.read_apply]
  simp only [cast_cast, cast_eq]
  have ho0 := emb_o offx hx y 0
  have ho1 := emb_o offx hx y 1
  rw [h0] at ho0; rw [h1] at ho1
  have hA : ∀ y' : S128x128.Idx, ((bSl ![0, 0] hb).view.writes (Elt F) fb
      [⟨Rect.whole S128x128, ReadAs.same.apply (View.read (Elt F) (xSl offx hx).view fx)⟩]) ((bSl ![0, 0] hb).view.emb y')
        = fx ((oSl offx hx).view.emb y') := by
    intro y'
    rw [writes_whole_emb (Val := Elt F) (bSl ![0, 0] hb).view fb _ y', ReadAs.apply_same, View.read_apply]
    simp only [cast_cast, cast_eq]
    rfl
  by_cases hC : (y 0).val = 1 ∧ (y 1).val < 16
  · -- under the rewritten lanes
    have hz : (bSl ![0, 0] hb).view.emb y
        = ((bW : Memref sig .scVector .vmem S512x128 .f32).access R16).emb (ValueIdx.ix2 (⟨0, by decide⟩ : Fin 1) (⟨(y 1).val, hC.2⟩ : Fin 16)) := by
      funext a; apply Fin.ext
      match a with
      | ⟨0, _⟩ => rw [emb_b, emb_16]; show 0 + 1 * (y 0).val = 1 + 1 * 0; omega
      | ⟨1, _⟩ => rw [emb_b, emb_16]; show 0 + 1 * (y 1).val = 0 + 1 * (y 1).val; rfl
    rw [hz, View.write_emb_of_mem _ _ (Finset.mem_univ _), Cert.PayAt.pay_k]
    simp only [cast_eq]
    have hidx : (R16.toLoadRect.idx (ValueIdx.ix2 (⟨0, by decide⟩ : Fin 1) (⟨(y 1).val, hC.2⟩ : Fin 16)) : S512x128.Idx)
        = (bSl ![0, 0] hb).view.emb y := by
      funext a; apply Fin.ext
      match a with
      | ⟨0, _⟩ => rw [emb_b, idx_16]; show 1 + 1 * 0 = 0 + 1 * (y 0).val; omega
      | ⟨1, _⟩ => rw [emb_b, idx_16]; show 0 + 1 * (y 1).val = 0 + 1 * (y 1).val; rfl
    by_cases h2 : (y 1).val = 2
    · rw [if_pos (show ((ValueIdx.ix2 (⟨0, by decide⟩ : Fin 1) (⟨(y 1).val, hC.2⟩ : Fin 16)) 1).val = 2 from h2)]
      exact (Cert.Spec.G_hit fx _ (by rw [ho0]; omega) (by rw [ho1]; omega)).symm
    · rw [if_neg (show ¬ ((ValueIdx.ix2 (⟨0, by decide⟩ : Fin 1) (⟨(y 1).val, hC.2⟩ : Fin 16)) 1).val = 2 from h2)]
      rw [View.readAt_apply, View.read_apply]
      simp only [cast_eq]
      rw [Cert.Spec.G_miss fx _ (by rw [ho1]; omega)]
      refine Eq.trans ?_ (hA y)
      exact congrArg _ hidx
  · -- elsewhere in the block
    have hnot : (bSl ![0, 0] hb).view.emb y ∉ ((bW : Memref sig .scVector .vmem S512x128 .f32).access R16).setOn Finset.univ := by
      intro hmem
      rw [View.setOn_univ] at hmem
      obtain ⟨z, -, hz⟩ := Finset.mem_map.mp hmem
      have e0 := congrArg (fun i : S512x128.Idx => (i 0).val) hz
      have e1 := congrArg (fun i : S512x128.Idx => (i 1).val) hz
      simp only [emb_b, emb_16] at e0 e1
      have z0 : (z 0).val < 1 := (z 0).isLt
      have z1 : (z 1).val < 16 := (z 1).isLt
      apply hC
      have e0' : 1 + 1 * (z 0).val = 0 + 1 * (y 0).val := e0
      have e1' : 0 + 1 * (z 1).val = 0 + 1 * (y 1).val := e1
      omega
    rw [View.write_of_not_mem _ _ _ hnot, hA y]
    refine (Cert.Spec.G_miss fx _ ?_).symm
    rw [ho0, ho1]
    intro h; apply hC; omega

end Cert.Proof.K

end
-- ==== Proof.K.Body.lean ====
/-
  One vector subcore's task, run once at a symbolic place: four blocks fetched into the quarters of the scratch, each
  waited for and sent on to the same rows of the result; the subcore whose first block holds row 1 overwrites that
  row's lane 2 with one between the first wait and the first send.
-/
import proofs.«209185_g61933428412696_cont_9to1_m_910_4_alg».proof.Proof.K.Setup
import proofs.«209185_g61933428412696_cont_9to1_m_910_4_alg».proof.Proof.K.Pieces
import proofs.«209185_g61933428412696_cont_9to1_m_910_4_alg».proof.Proof.PayAt
import proofs.«209185_g61933428412696_cont_9to1_m_910_4_alg».proof.Proof.K.Moved

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)

/-! ## The task's semaphores and its scratch among the subcore's own -/

abbrev cell1 (d : Dev nD) (L : grid0.Coords) : GSem nD τ sig := (V d (cV L) (jV L), SemLoc.dma cc0_scratch1.sem)
abbrev cell2 (d : Dev nD) (L : grid0.Coords) : GSem nD τ sig := (V d (cV L) (jV L), SemLoc.dma cc0_scratch2.sem)
abbrev cell3 (d : Dev nD) (L : grid0.Coords) : GSem nD τ sig := (V d (cV L) (jV L), SemLoc.dma cc0_scratch3.sem)
abbrev cell4 (d : Dev nD) (L : grid0.Coords) : GSem nD τ sig := (V d (cV L) (jV L), SemLoc.dma cc0_scratch4.sem)
abbrev cell5 (d : Dev nD) (L : grid0.Coords) : GSem nD τ sig := (V d (cV L) (jV L), SemLoc.dma cc0_scratch5.sem)
abbrev cell6 (d : Dev nD) (L : grid0.Coords) : GSem nD τ sig := (V d (cV L) (jV L), SemLoc.dma cc0_scratch6.sem)
abbrev cell7 (d : Dev nD) (L : grid0.Coords) : GSem nD τ sig := (V d (cV L) (jV L), SemLoc.dma cc0_scratch7.sem)
abbrev cell8 (d : Dev nD) (L : grid0.Coords) : GSem nD τ sig := (V d (cV L) (jV L), SemLoc.dma cc0_scratch8.sem)

omit [FloatOps F] in
theorem cell_ne {a b : DmaSem sig} (h : a ≠ b) :
    ((V d (cV L) (jV L), SemLoc.dma a) : GSem nD τ sig) ≠ (V d (cV L) (jV L), SemLoc.dma b) :=
  fun e => h (SemLoc.dma.inj (Prod.mk.inj e).2)

/-- What remains of the subcore's own semaphores beside the task's eight. -/
abbrev restCells (d : Dev nD) (L : grid0.Coords) : Finset (GSem nD τ sig) := (((((((((ownCells (V d (cV L) (jV L))).erase (cell1 d L)).erase (cell2 d L)).erase (cell3 d L)).erase (cell4 d L)).erase (cell5 d L)).erase (cell6 d L)).erase (cell7 d L)).erase (cell8 d L))

omit [FloatOps F] in
theorem ownSems0_V :
    (ownSems0 (V d (cV L) (jV L)) : sProp 𝕄)
      = iprop(semVal (cell1 d L) 0 ∗ semVal (cell2 d L) 0 ∗ semVal (cell3 d L) 0 ∗ semVal (cell4 d L) 0 ∗ semVal (cell5 d L) 0 ∗ semVal (cell6 d L) 0 ∗ semVal (cell7 d L) 0 ∗ semVal (cell8 d L) 0
          ∗ bigSep (restCells d L) fun g => semVal g 0) := by
  unfold SparseCore.Cfg.ownSems0
  rw [SparseCore.bigSep_erase' ((mem_ownCells (g := cell1 d L)).mpr ⟨rfl, by show (SemLoc.dma cc0_scratch1.sem : SemLoc sig).isScoped .scVector = true; decide⟩),
    SparseCore.bigSep_erase' (Finset.mem_erase.mpr ⟨cell_ne d L (by decide : (cc0_scratch2.sem : DmaSem sig) ≠ cc0_scratch1.sem), (mem_ownCells (g := cell2 d L)).mpr ⟨rfl, by show (SemLoc.dma cc0_scratch2.sem : SemLoc sig).isScoped .scVector = true; decide⟩⟩),
    SparseCore.bigSep_erase' (Finset.mem_erase.mpr ⟨cell_ne d L (by decide : (cc0_scratch3.sem : DmaSem sig) ≠ cc0_scratch2.sem), Finset.mem_erase.mpr ⟨cell_ne d L (by decide : (cc0_scratch3.sem : DmaSem sig) ≠ cc0_scratch1.sem), (mem_ownCells (g := cell3 d L)).mpr ⟨rfl, by show (SemLoc.dma cc0_scratch3.sem : SemLoc sig).isScoped .scVector = true; decide⟩⟩⟩),
    SparseCore.bigSep_erase' (Finset.mem_erase.mpr ⟨cell_ne d L (by decide : (cc0_scratch4.sem : DmaSem sig) ≠ cc0_scratch3.sem), Finset.mem_erase.mpr ⟨cell_ne d L (by decide : (cc0_scratch4.sem : DmaSem sig) ≠ cc0_scratch2.sem), Finset.mem_erase.mpr ⟨cell_ne d L (by decide : (cc0_scratch4.sem : DmaSem sig) ≠ cc0_scratch1.sem), (mem_ownCells (g := cell4 d L)).mpr ⟨rfl, by show (SemLoc.dma cc0_scratch4.sem : SemLoc sig).isScoped .scVector = true; decide⟩⟩⟩⟩),
    SparseCore.bigSep_erase' (Finset.mem_erase.mpr ⟨cell_ne d L (by decide : (cc0_scratch5.sem : DmaSem sig) ≠ cc0_scratch4.sem), Finset.mem_erase.mpr ⟨cell_ne d L (by decide : (cc0_scratch5.sem : DmaSem sig) ≠ cc0_scratch3.sem), Finset.mem_erase.mpr ⟨cell_ne d L (by decide : (cc0_scratch5.sem : DmaSem sig) ≠ cc0_scratch2.sem), Finset.mem_erase.mpr ⟨cell_ne d L (by decide : (cc0_scratch5.sem : DmaSem sig) ≠ cc0_scratch1.sem), (mem_ownCells (g := cell5 d L)).mpr ⟨rfl, by show (SemLoc.dma cc0_scratch5.sem : SemLoc sig).isScoped .scVector = true; decide⟩⟩⟩⟩⟩),
    SparseCore.bigSep_erase' (Finset.mem_erase.mpr ⟨cell_ne d L (by decide : (cc0_scratch6.sem : DmaSem sig) ≠ cc0_scratch5.sem), Finset.mem_erase.mpr ⟨cell_ne d L (by decide : (cc0_scratch6.sem : DmaSem sig) ≠ cc0_scratch4.sem), Finset.mem_erase.mpr ⟨cell_ne d L (by decide : (cc0_scratch6.sem : DmaSem sig) ≠ cc0_scratch3.sem), Finset.mem_erase.mpr ⟨cell_ne d L (by decide : (cc0_scratch6.sem : DmaSem sig) ≠ cc0_scratch2.sem), Finset.mem_erase.mpr ⟨cell_ne d L (by decide : (cc0_scratch6.sem : DmaSem sig) ≠ cc0_scratch1.sem), (mem_ownCells (g := cell6 d L)).mpr ⟨rfl, by show (SemLoc.dma cc0_scratch6.sem : SemLoc sig).isScoped .scVector = true; decide⟩⟩⟩⟩⟩⟩),
    SparseCore.bigSep_erase' (Finset.mem_erase.mpr ⟨cell_ne d L (by decide : (cc0_scratch7.sem : DmaSem sig) ≠ cc0_scratch6.sem), Finset.mem_erase.mpr ⟨cell_ne d L (by decide : (cc0_scratch7.sem : DmaSem sig) ≠ cc0_scratch5.sem), Finset.mem_erase.mpr ⟨cell_ne d L (by decide : (cc0_scratch7.sem : DmaSem sig) ≠ cc0_scratch4.sem), Finset.mem_erase.mpr ⟨cell_ne d L (by decide : (cc0_scratch7.sem : DmaSem sig) ≠ cc0_scratch3.sem), Finset.mem_erase.mpr ⟨cell_ne d L (by decide : (cc0_scratch7.sem : DmaSem sig) ≠ cc0_scratch2.sem), Finset.mem_erase.mpr ⟨cell_ne d L (by decide : (cc0_scratch7.sem : DmaSem sig) ≠ cc0_scratch1.sem), (mem_ownCells (g := cell7 d L)).mpr ⟨rfl, by show (SemLoc.dma cc0_scratch7.sem : SemLoc sig).isScoped .scVector = true; decide⟩⟩⟩⟩⟩⟩⟩),
    SparseCore.bigSep_erase' (Finset.mem_erase.mpr ⟨cell_ne d L (by decide : (cc0_scratch8.sem : DmaSem sig) ≠ cc0_scratch7.sem), Finset.mem_erase.mpr ⟨cell_ne d L (by decide : (cc0_scratch8.sem : DmaSem sig) ≠ cc0_scratch6.sem), Finset.mem_erase.mpr ⟨cell_ne d L (by decide : (cc0_scratch8.sem : DmaSem sig) ≠ cc0_scratch5.sem), Finset.mem_erase.mpr ⟨cell_ne d L (by decide : (cc0_scratch8.sem : DmaSem sig) ≠ cc0_scratch4.sem), Finset.mem_erase.mpr ⟨cell_ne d L (by decide : (cc0_scratch8.sem : DmaSem sig) ≠ cc0_scratch3.sem), Finset.mem_erase.mpr ⟨cell_ne d L (by decide : (cc0_scratch8.sem : DmaSem sig) ≠ cc0_scratch2.sem), Finset.mem_erase.mpr ⟨cell_ne d L (by decide : (cc0_scratch8.sem : DmaSem sig) ≠ cc0_scratch1.sem), (mem_ownCells (g := cell8 d L)).mpr ⟨rfl, by show (SemLoc.dma cc0_scratch8.sem : SemLoc sig).isScoped .scVector = true; decide⟩⟩⟩⟩⟩⟩⟩⟩)]

omit [FloatOps F] in
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## The pieces as the task's thread addresses them -/

omit [FloatOps F] in
theorem pts_xS0 (f : Buf (Elt F) (xLoc d)) :
    ((xS0 L).view.loc (V d (cV L) (jV L)) ↦[(xS0 L).view.set]{fullShare} f : sProp 𝕄) = xLoc d ↦[blkN (pcN (L 0).val (L 1).val 0)]{fullShare} f := by
  rw [set_xS0]
omit [FloatOps F] in
theorem pts_oS0 (f : Buf (Elt F) (oLoc d)) :
    ((oS0 L).view.loc (V d (cV L) (jV L)) ↦[(oS0 L).view.set]{fullShare} f : sProp 𝕄) = oLoc d ↦[blkN (pcN (L 0).val (L 1).val 0)]{fullShare} f := by
  rw [set_oS0]
omit [FloatOps F] in
theorem pts_bS0 (f : Buf (Elt F) ((V d (cV L) (jV L)).loc cc0_scratch0)) :
    ((bS0).view.loc (V d (cV L) (jV L)) ↦[(bS0).view.set]{fullShare} f : sProp 𝕄) = (V d (cV L) (jV L)).loc cc0_scratch0 ↦[qSet 0]{fullShare} f := by
  rw [set_bS0]
omit [FloatOps F] in
theorem pts_xS1 (f : Buf (Elt F) (xLoc d)) :
    ((xS1 L).view.loc (V d (cV L) (jV L)) ↦[(xS1 L).view.set]{fullShare} f : sProp 𝕄) = xLoc d ↦[blkN (pcN (L 0).val (L 1).val 1)]{fullShare} f := by
  rw [set_xS1]
omit [FloatOps F] in
theorem pts_oS1 (f : Buf (Elt F) (oLoc d)) :
    ((oS1 L).view.loc (V d (cV L) (jV L)) ↦[(oS1 L).view.set]{fullShare} f : sProp 𝕄) = oLoc d ↦[blkN (pcN (L 0).val (L 1).val 1)]{fullShare} f := by
  rw [set_oS1]
omit [FloatOps F] in
theorem pts_bS1 (f : Buf (Elt F) ((V d (cV L) (jV L)).loc cc0_scratch0)) :
    ((bS1).view.loc (V d (cV L) (jV L)) ↦[(bS1).view.set]{fullShare} f : sProp 𝕄) = (V d (cV L) (jV L)).loc cc0_scratch0 ↦[qSet 1]{fullShare} f := by
  rw [set_bS1]
omit [FloatOps F] in
theorem pts_xS2 (f : Buf (Elt F) (xLoc d)) :
    ((xS2 L).view.loc (V d (cV L) (jV L)) ↦[(xS2 L).view.set]{fullShare} f : sProp 𝕄) = xLoc d ↦[blkN (pcN (L 0).val (L 1).val 2)]{fullShare} f := by
  rw [set_xS2]
omit [FloatOps F] in
theorem pts_oS2 (f : Buf (Elt F) (oLoc d)) :
    ((oS2 L).view.loc (V d (cV L) (jV L)) ↦[(oS2 L).view.set]{fullShare} f : sProp 𝕄) = oLoc d ↦[blkN (pcN (L 0).val (L 1).val 2)]{fullShare} f := by
  rw [set_oS2]
omit [FloatOps F] in
theorem pts_bS2 (f : Buf (Elt F) ((V d (cV L) (jV L)).loc cc0_scratch0)) :
    ((bS2).view.loc (V d (cV L) (jV L)) ↦[(bS2).view.set]{fullShare} f : sProp 𝕄) = (V d (cV L) (jV L)).loc cc0_scratch0 ↦[qSet 2]{fullShare} f := by
  rw [set_bS2]
omit [FloatOps F] in
theorem pts_xS3 (f : Buf (Elt F) (xLoc d)) :
    ((xS3 L).view.loc (V d (cV L) (jV L)) ↦[(xS3 L).view.set]{fullShare} f : sProp 𝕄) = xLoc d ↦[blkN (pcN (L 0).val (L 1).val 3)]{fullShare} f := by
  rw [set_xS3]
omit [FloatOps F] in
theorem pts_oS3 (f : Buf (Elt F) (oLoc d)) :
    ((oS3 L).view.loc (V d (cV L) (jV L)) ↦[(oS3 L).view.set]{fullShare} f : sProp 𝕄) = oLoc d ↦[blkN (pcN (L 0).val (L 1).val 3)]{fullShare} f := by
  rw [set_oS3]
omit [FloatOps F] in
theorem pts_bS3 (f : Buf (Elt F) ((V d (cV L) (jV L)).loc cc0_scratch0)) :
    ((bS3).view.loc (V d (cV L) (jV L)) ↦[(bS3).view.set]{fullShare} f : sProp 𝕄) = (V d (cV L) (jV L)).loc cc0_scratch0 ↦[qSet 3]{fullShare} f := by
  rw [set_bS3]

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

omit [FloatOps F] in
/-- The scratch whole is its four quarters. -/
theorem scratch_quarters (f : Buf (Elt F) ((V d (cV L) (jV L)).loc cc0_scratch0)) :
    ((V d (cV L) (jV L)).loc cc0_scratch0 ↦{fullShare} f : sProp 𝕄)
      = iprop(((V d (cV L) (jV L)).loc cc0_scratch0 ↦[qSet 0]{fullShare} f) ∗ ((V d (cV L) (jV L)).loc cc0_scratch0 ↦[qSet 1]{fullShare} f)
          ∗ ((V d (cV L) (jV L)).loc cc0_scratch0 ↦[qSet 2]{fullShare} f) ∗ ((V d (cV L) (jV L)).loc cc0_scratch0 ↦[qSet 3]{fullShare} f)) := by
  rw [← bigSep_fin4 (F := F) (fun r => (V d (cV L) (jV L)).loc cc0_scratch0 ↦[qSet r]{fullShare} f),
    ← pointsTo_biUnion Finset.univ (ℓ := (V d (cV L) (jV L)).loc cc0_scratch0) qSet q_disjoint, q_cover]; try rfl

/-! ## The task -/

/-- The subcore's number `2 s + c`, as the body computes it, and the test that it is zero. -/
abbrev wid (L : grid0.Coords) : BitVec 32 := Scalar.addi (Scalar.muli (BitVec.ofNat 32 (L 1).val) 2#32) (BitVec.ofNat 32 (L 0).val)
abbrev first (L : grid0.Coords) : Prop := Scalar.cmpi .ne (Scalar.extui (Scalar.cmpi .eq (wid L) 0#32)) 0#32 = 1#1

omit [FloatOps F] in
theorem first_iff : ∀ L : grid0.Coords, first L ↔ ((L 0).val = 0 ∧ (L 1).val = 0) := by decide +kernel

/-! ## What the task leaves in its blocks of the result -/

omit [FloatOps F] in
theorem off_first (h : first L) : k0_off1 L 0#32 0 = 0 ∧ k0_off1 L 0#32 1 = 0 := by
  obtain ⟨h0, h1⟩ := (first_iff L).mp h
  have e : k0_off1 L 0#32 = ![1024 * (L 1).val + 512 * (L 0).val + 128 * (0 : Fin 4).val, 0] := k0_off1_eq L (0 : Fin 4)
  rw [e, h0, h1]; exact ⟨rfl, rfl⟩

omit [FloatOps F] in
/-- A block other than the one holding row 1 has no entry in row 1. -/
theorem row_ne_one (r : Fin 4) (h : ¬ first L ∨ 0 < r.val) {i : S16384x128.Idx} (hi : i ∈ blkN (pcN (L 0).val (L 1).val r.val)) :
    ¬ ((i 0).val = 1 ∧ (i 1).val = 2) := by
  rw [blkN_pc L r, mem_blk] at hi
  have hn : 1 ≤ pcN (L 0).val (L 1).val r.val := by
    unfold pcN
    rcases h with h | h
    · have := fun hh => h ((first_iff L).mpr hh)
      by_contra hlt
      exact this ⟨by omega, by omega⟩
    · omega
  intro hrow
  have : 128 * pcN (L 0).val (L 1).val r.val ≤ (i 0).val := hi.1
  omega

theorem o_plain0 (fb : Buf (Elt F) ((V d (cV L) (jV L)).loc cc0_scratch0)) (h : ¬ first L ∨ 0 < (0 : Fin 4).val) :
    ((oS0 L).view.loc (V d (cV L) (jV L)) ↦[(oS0 L).view.set]{fullShare}
      ((oS0 L).view.writes (Elt F) (m (oLoc d))
        [⟨Rect.whole S128x128, ReadAs.same.apply (View.read (Elt F) bS0.view
          (bS0.view.writes (Elt F) fb
            [⟨Rect.whole S128x128, ReadAs.same.apply (View.read (Elt F) (xS0 L).view (m (xLoc d)))⟩]))⟩]) : sProp 𝕄)
      = oLoc d ↦[blkN (pcN (L 0).val (L 1).val 0)]{fullShare} Cert.Spec.G (m (xLoc d)) := by
  rw [← pts_oS0 (F := F) d L]
  refine pointsTo_congr fun i hi => ?_
  refine (moved d (cV L) (jV L) _ _ _ _ (m (oLoc d)) (m (xLoc d)) fb i hi).trans ?_
  refine (Cert.Spec.G_miss _ _ ?_).symm
  rw [set_oS0] at hi
  exact row_ne_one L 0 h hi
theorem o_plain1 (fb : Buf (Elt F) ((V d (cV L) (jV L)).loc cc0_scratch0)) (h : ¬ first L ∨ 0 < (1 : Fin 4).val) :
    ((oS1 L).view.loc (V d (cV L) (jV L)) ↦[(oS1 L).view.set]{fullShare}
      ((oS1 L).view.writes (Elt F) (m (oLoc d))
        [⟨Rect.whole S128x128, ReadAs.same.apply (View.read (Elt F) bS1.view
          (bS1.view.writes (Elt F) fb
            [⟨Rect.whole S128x128, ReadAs.same.apply (View.read (Elt F) (xS1 L).view (m (xLoc d)))⟩]))⟩]) : sProp 𝕄)
      = oLoc d ↦[blkN (pcN (L 0).val (L 1).val 1)]{fullShare} Cert.Spec.G (m (xLoc d)) := by
  rw [← pts_oS1 (F := F) d L]
  refine pointsTo_congr fun i hi => ?_
  refine (moved d (cV L) (jV L) _ _ _ _ (m (oLoc d)) (m (xLoc d)) fb i hi).trans ?_
  refine (Cert.Spec.G_miss _ _ ?_).symm
  rw [set_oS1] at hi
  exact row_ne_one L 1 h hi
theorem o_plain2 (fb : Buf (Elt F) ((V d (cV L) (jV L)).loc cc0_scratch0)) (h : ¬ first L ∨ 0 < (2 : Fin 4).val) :
    ((oS2 L).view.loc (V d (cV L) (jV L)) ↦[(oS2 L).view.set]{fullShare}
      ((oS2 L).view.writes (Elt F) (m (oLoc d))
        [⟨Rect.whole S128x128, ReadAs.same.apply (View.read (Elt F) bS2.view
          (bS2.view.writes (Elt F) fb
            [⟨Rect.whole S128x128, ReadAs.same.apply (View.read (Elt F) (xS2 L).view (m (xLoc d)))⟩]))⟩]) : sProp 𝕄)
      = oLoc d ↦[blkN (pcN (L 0).val (L 1).val 2)]{fullShare} Cert.Spec.G (m (xLoc d)) := by
  rw [← pts_oS2 (F := F) d L]
  refine pointsTo_congr fun i hi => ?_
  refine (moved d (cV L) (jV L) _ _ _ _ (m (oLoc d)) (m (xLoc d)) fb i hi).trans ?_
  refine (Cert.Spec.G_miss _ _ ?_).symm
  rw [set_oS2] at hi
  exact row_ne_one L 2 h hi
theorem o_plain3 (fb : Buf (Elt F) ((V d (cV L) (jV L)).loc cc0_scratch0)) (h : ¬ first L ∨ 0 < (3 : Fin 4).val) :
    ((oS3 L).view.loc (V d (cV L) (jV L)) ↦[(oS3 L).view.set]{fullShare}
      ((oS3 L).view.writes (Elt F) (m (oLoc d))
        [⟨Rect.whole S128x128, ReadAs.same.apply (View.read (Elt F) bS3.view
          (bS3.view.writes (Elt F) fb
            [⟨Rect.whole S128x128, ReadAs.same.apply (View.read (Elt F) (xS3 L).view (m (xLoc d)))⟩]))⟩]) : sProp 𝕄)
      = oLoc d ↦[blkN (pcN (L 0).val (L 1).val 3)]{fullShare} Cert.Spec.G (m (xLoc d)) := by
  rw [← pts_oS3 (F := F) d L]
  refine pointsTo_congr fun i hi => ?_
  refine (moved d (cV L) (jV L) _ _ _ _ (m (oLoc d)) (m (xLoc d)) fb i hi).trans ?_
  refine (Cert.Spec.G_miss _ _ ?_).symm
  rw [set_oS3] at hi
  exact row_ne_one L 3 h hi

theorem o_first0 (fb : Buf (Elt F) ((V d (cV L) (jV L)).loc cc0_scratch0)) (h : first L) :
    ((oS0 L).view.loc (V d (cV L) (jV L)) ↦[(oS0 L).view.set]{fullShare}
      ((oS0 L).view.writes (Elt F) (m (oLoc d))
        [⟨Rect.whole S128x128, ReadAs.same.apply (View.read (Elt F) bS0.view
          (View.write (Elt F) ((bW : Memref sig .scVector .vmem S512x128 .f32).access R16)
            (bS0.view.writes (Elt F) fb
              [⟨Rect.whole S128x128, ReadAs.same.apply (View.read (Elt F) (xS0 L).view (m (xLoc d)))⟩])
            (k0_pay1 (View.readAt (Elt F) (bW : Memref sig .scVector .vmem S512x128 .f32).view R16.toLoadRect
              (bS0.view.writes (Elt F) fb
                [⟨Rect.whole S128x128, ReadAs.same.apply (View.read (Elt F) (xS0 L).view (m (xLoc d)))⟩])))
            Finset.univ))⟩]) : sProp 𝕄)
      = oLoc d ↦[blkN (pcN (L 0).val (L 1).val 0)]{fullShare} Cert.Spec.G (m (xLoc d)) := by
  rw [← pts_oS0 (F := F) d L]
  refine pointsTo_congr fun i hi => ?_
  exact moved_first d (cV L) (jV L) _ _ (off_first L h).1 (off_first L h).2 _ (m (oLoc d)) (m (xLoc d)) fb i hi

omit [FloatOps F] in
/-- The four quarters, whatever each holds, are the scratch whole at some contents. -/
theorem quarters_join (f0 f1 f2 f3 : Buf (Elt F) ((V d (cV L) (jV L)).loc cc0_scratch0)) :
    iprop(((V d (cV L) (jV L)).loc cc0_scratch0 ↦[qSet 0]{fullShare} f0) ∗ ((V d (cV L) (jV L)).loc cc0_scratch0 ↦[qSet 1]{fullShare} f1)
        ∗ ((V d (cV L) (jV L)).loc cc0_scratch0 ↦[qSet 2]{fullShare} f2) ∗ ((V d (cV L) (jV L)).loc cc0_scratch0 ↦[qSet 3]{fullShare} f3))
      ⊢ (iprop(∃ f, (V d (cV L) (jV L)).loc cc0_scratch0 ↦{fullShare} f) : sProp 𝕄) := by
  have hj : bigSep Finset.univ (fun t : Fin 4 => ((V d (cV L) (jV L)).loc cc0_scratch0 ↦[qSet t]{fullShare} (![f0, f1, f2, f3] : Fin 4 → Buf (Elt F) ((V d (cV L) (jV L)).loc cc0_scratch0)) t : sProp 𝕄))
      ⊢ (iprop(∃ g, ⌜∀ t ∈ (Finset.univ : Finset (Fin 4)), ∀ i ∈ qSet t, g i = (![f0, f1, f2, f3] : Fin 4 → Buf (Elt F) ((V d (cV L) (jV L)).loc cc0_scratch0)) t i⌝
          ∗ (V d (cV L) (jV L)).loc cc0_scratch0 ↦[(Finset.univ : Finset (Fin 4)).biUnion qSet]{fullShare} g) : sProp 𝕄) :=
    pointsTo_biUnion_join (q := fullShare) (ℓ := (V d (cV L) (jV L)).loc cc0_scratch0) Finset.univ qSet ![f0, f1, f2, f3] f0 q_disjoint
  rw [bigSep_fin4, q_cover] at hj
  refine hj.trans ?_
  iintro ⟨%g, -, Hg⟩
  iexists g; iexact Hg

/-- What the task is handed: its four blocks of the argument and of the result. -/
def goC (d : Dev nD) (c s : ℕ) : sProp 𝕄 :=
  bigSep Finset.univ fun r : Fin 4 => iprop((xLoc d ↦[blkN (pcN c s r.val)]{fullShare} m (xLoc d)) ∗ oLoc d ↦[blkN (pcN c s r.val)]{fullShare} m (oLoc d))
/-- What it hands back: the argument's blocks as they were, the result's at the overwritten copy. -/
def tdC (d : Dev nD) (c s : ℕ) : sProp 𝕄 :=
  bigSep Finset.univ fun r : Fin 4 => iprop((xLoc d ↦[blkN (pcN c s r.val)]{fullShare} m (xLoc d))
    ∗ oLoc d ↦[blkN (pcN c s r.val)]{fullShare} Cert.Spec.G (m (xLoc d)))

theorem tile_body (hF : (K (F := F)).Facts) (O : CellTallies nD τ sig (HIx 1)) (W : Waits sig (HIx 1)) (hO : ∀ g, O g none = 0) :
    iprop(levAts (K (F := F)).L (K (F := F)).lev ∗ emp ∗ goC m d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__copy_assign L xW (Memref.isWhole_whole _) oW (Memref.isWhole_whole _) bW (Memref.isWhole_whole _)
            cc0_scratch1 cc0_scratch2 cc0_scratch3 cc0_scratch4 cc0_scratch5 cc0_scratch6 cc0_scratch7 cc0_scratch8)
          fun _ => iprop(tdC m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__copy_assign_eq_skeleton]; unfold cc0__copy_assign_skel
  rw [(K (F := F)).scopedBufs_V hF d (cV L) (jV L), SparseCore.Cfg.scopedSems0_V (Val := Elt F) d (cV L) (jV L), ownSems0_V, ownBufs_V]
  unfold goC tdC
  rw [bigSep_fin4, bigSep_fin4]
  iintro ⟨#Hlv, -, ⟨⟨Hx0, Ho0⟩, ⟨Hx1, Ho1⟩, ⟨Hx2, Ho2⟩, ⟨Hx3, Ho3⟩⟩, ⟨⟨%fb, Hb⟩, Hbufs⟩, ⟨Hs1, Hs2, Hs3, Hs4, Hs5, Hs6, Hs7, Hs8, Hsems⟩, HO⟩
  ihave Hmw := ((K (F := F)).mayWaits_none (thr := V d (cV L) (jV L)) hO) $$ Hlv
  ihave Hq := (Entails.of_eq (scratch_quarters (F := F) d L fb)) $$ Hb
  icases Hq with ⟨Hb0, Hb1, Hb2, Hb3⟩
  ihave Hx0' := (Entails.of_eq (pts_xS0 (F := F) d L _).symm) $$ Hx0
  ihave Ho0' := (Entails.of_eq (pts_oS0 (F := F) d L _).symm) $$ Ho0
  ihave Hb0' := (Entails.of_eq (pts_bS0 (F := F) d L _).symm) $$ Hb0
  ihave Hx1' := (Entails.of_eq (pts_xS1 (F := F) d L _).symm) $$ Hx1
  ihave Ho1' := (Entails.of_eq (pts_oS1 (F := F) d L _).symm) $$ Ho1
  ihave Hb1' := (Entails.of_eq (pts_bS1 (F := F) d L _).symm) $$ Hb1
  ihave Hx2' := (Entails.of_eq (pts_xS2 (F := F) d L _).symm) $$ Hx2
  ihave Ho2' := (Entails.of_eq (pts_oS2 (F := F) d L _).symm) $$ Ho2
  ihave Hb2' := (Entails.of_eq (pts_bS2 (F := F) d L _).symm) $$ Hb2
  ihave Hx3' := (Entails.of_eq (pts_xS3 (F := F) d L _).symm) $$ Hx3
  ihave Ho3' := (Entails.of_eq (pts_oS3 (F := F) d L _).symm) $$ Ho3
  ihave Hb3' := (Entails.of_eq (pts_bS3 (F := F) d L _).symm) $$ Hb3
  by_cases hfirst : first L
  ·
    sl_exec
    sl_unfold_run_names
    sl_step
    isplitl [Hx0' Ho0' Hx1' Ho1' Hx2' Ho2' Hx3' Ho3']
    · isplitl [Hx0' Ho0']
      · isplitl [Hx0']
        · iapply (Entails.of_eq (pts_xS0 (F := F) d L _)); iexact Hx0'
        · iapply (Entails.of_eq (o_first0 (F := F) m d L _ hfirst)); iexact Ho0'
      isplitl [Hx1' Ho1']
      · isplitl [Hx1']
        · iapply (Entails.of_eq (pts_xS1 (F := F) d L _)); iexact Hx1'
        · iapply (Entails.of_eq (o_plain1 (F := F) m d L _ (Or.inr (by decide)))); iexact Ho1'
      isplitl [Hx2' Ho2']
      · isplitl [Hx2']
        · iapply (Entails.of_eq (pts_xS2 (F := F) d L _)); iexact Hx2'
        · iapply (Entails.of_eq (o_plain2 (F := F) m d L _ (Or.inr (by decide)))); iexact Ho2'
      · isplitl [Hx3']
        · iapply (Entails.of_eq (pts_xS3 (F := F) d L _)); iexact Hx3'
        · iapply (Entails.of_eq (o_plain3 (F := F) m d L _ (Or.inr (by decide)))); iexact Ho3'
    isplitl [Hb0' Hb1' Hb2' Hb3' Hbufs]
    · isplitl [Hb0' Hb1' Hb2' Hb3']
      · ihave Hb0 := (Entails.of_eq (pts_bS0 (F := F) d L _)) $$ Hb0'
        ihave Hb1 := (Entails.of_eq (pts_bS1 (F := F) d L _)) $$ Hb1'
        ihave Hb2 := (Entails.of_eq (pts_bS2 (F := F) d L _)) $$ Hb2'
        ihave Hb3 := (Entails.of_eq (pts_bS3 (F := F) d L _)) $$ Hb3'
        iapply (quarters_join (F := F) d L _ _ _ _)
        isplitl [Hb0]; · iexact Hb0
        isplitl [Hb1]; · iexact Hb1
        isplitl [Hb2]; · iexact Hb2
        iexact Hb3
      · iexact Hbufs
    isplitl [Hs1 Hs2 Hs3 Hs4 Hs5 Hs6 Hs7 Hs8 Hsems]
    · isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hsems
    iexists _; isplitr
    rotate_left
    · iexact HO
    · ipureintro; intro p hp
      simp only [Finset.mem_insert] at hp
      rcases hp with rfl | rfl | rfl | rfl | rfl | rfl | rfl | rfl | hp
      · exact .inr rfl
      · exact .inr rfl
      · exact .inr rfl
      · exact .inr rfl
      · exact .inr rfl
      · exact .inr rfl
      · exact .inr rfl
      · exact .inr rfl
      · exact .inl hp
  ·
    sl_exec
    sl_unfold_run_names
    sl_step
    isplitl [Hx0' Ho0' Hx1' Ho1' Hx2' Ho2' Hx3' Ho3']
    · isplitl [Hx0' Ho0']
      · isplitl [Hx0']
        · iapply (Entails.of_eq (pts_xS0 (F := F) d L _)); iexact Hx0'
        · iapply (Entails.of_eq (o_plain0 (F := F) m d L _ (Or.inl hfirst))); iexact Ho0'
      isplitl [Hx1' Ho1']
      · isplitl [Hx1']
        · iapply (Entails.of_eq (pts_xS1 (F := F) d L _)); iexact Hx1'
        · iapply (Entails.of_eq (o_plain1 (F := F) m d L _ (Or.inr (by decide)))); iexact Ho1'
      isplitl [Hx2' Ho2']
      · isplitl [Hx2']
        · iapply (Entails.of_eq (pts_xS2 (F := F) d L _)); iexact Hx2'
        · iapply (Entails.of_eq (o_plain2 (F := F) m d L _ (Or.inr (by decide)))); iexact Ho2'
      · isplitl [Hx3']
        · iapply (Entails.of_eq (pts_xS3 (F := F) d L _)); iexact Hx3'
        · iapply (Entails.of_eq (o_plain3 (F := F) m d L _ (Or.inr (by decide)))); iexact Ho3'
    isplitl [Hb0' Hb1' Hb2' Hb3' Hbufs]
    · isplitl [Hb0' Hb1' Hb2' Hb3']
      · ihave Hb0 := (Entails.of_eq (pts_bS0 (F := F) d L _)) $$ Hb0'
        ihave Hb1 := (Entails.of_eq (pts_bS1 (F := F) d L _)) $$ Hb1'
        ihave Hb2 := (Entails.of_eq (pts_bS2 (F := F) d L _)) $$ Hb2'
        ihave Hb3 := (Entails.of_eq (pts_bS3 (F := F) d L _)) $$ Hb3'
        iapply (quarters_join (F := F) d L _ _ _ _)
        isplitl [Hb0]; · iexact Hb0
        isplitl [Hb1]; · iexact Hb1
        isplitl [Hb2]; · iexact Hb2
        iexact Hb3
      · iexact Hbufs
    isplitl [Hs1 Hs2 Hs3 Hs4 Hs5 Hs6 Hs7 Hs8 Hsems]
    · isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hsems
    iexists _; isplitr
    rotate_left
    · iexact HO
    · ipureintro; intro p hp
      simp only [Finset.mem_insert] at hp
      rcases hp with rfl | rfl | rfl | rfl | rfl | rfl | rfl | rfl | hp
      · exact .inr rfl
      · exact .inr rfl
      · exact .inr rfl
      · exact .inr rfl
      · exact .inr rfl
      · exact .inr rfl
      · exact .inr rfl
      · exact .inr rfl
      · exact .inl hp

end Cert.Proof.K

end
-- ==== Proof.K.Regroup.lean ====
/-
  The whole array as its 128 row blocks, grouped by the vector subcore that moves them: SparseCore `c`,
  position `s`, piece `r` name block `8 s + 4 c + r`, and every block has exactly one such name.
-/
import proofs.«209185_g61933428412696_cont_9to1_m_910_4_alg».proof.Proof.K.Setup

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The block number of SparseCore `c`, position `s`, piece `r` is below 128. -/
theorem pcN_lt (c : Fin 2) (s : Fin 16) (r : Fin 4) : pcN c.val s.val r.val < 128 := by
  have hc := c.isLt; have hs := s.isLt; have hr := r.isLt
  show 8 * s.val + 4 * c.val + r.val < 128
  omega

/-- The numbering of the 128 blocks: `(c, s, r) ↦ 8 s + 4 c + r` is one-to-one onto them, with inverse
    `n ↦ (n / 4 mod 2, n / 8, n mod 4)`. -/
def blkEquiv : (Fin 2 × Fin 16) × Fin 4 ≃ Fin 128 where
  toFun p := ⟨pcN p.1.1.val p.1.2.val p.2.val, pcN_lt p.1.1 p.1.2 p.2⟩
  invFun n := ((⟨n.val / 4 % 2, Nat.mod_lt _ (by decide)⟩, ⟨n.val / 8, by have := n.isLt; omega⟩), ⟨n.val % 4, Nat.mod_lt _ (by decide)⟩)
  left_inv p := by
    obtain ⟨⟨c, s⟩, r⟩ := p
    have hc := c.isLt; have hs := s.isLt; have hr := r.isLt
    refine Prod.ext (Prod.ext (Fin.ext ?_) (Fin.ext ?_)) (Fin.ext ?_)
    · show (8 * s.val + 4 * c.val + r.val) / 4 % 2 = c.val
      omega
    · show (8 * s.val + 4 * c.val + r.val) / 8 = s.val
      omega
    · show (8 * s.val + 4 * c.val + r.val) % 4 = r.val
      omega
  right_inv n := by
    have hn := n.isLt
    refine Fin.ext ?_
    show 8 * (n.val / 8) + 4 * (n.val / 4 % 2) + n.val % 4 = n.val
    omega

theorem blkEquiv_val (c : Fin 2) (s : Fin 16) (r : Fin 4) : (blkEquiv ((c, s), r)).val = pcN c.val s.val r.val := rfl

/-- Block number `8 s + 4 c + r` as a natural is that block. -/
theorem blkN_pcN (c : Fin 2) (s : Fin 16) (r : Fin 4) : blkN (pcN c.val s.val r.val) = blk (blkEquiv ((c, s), r)) := by
  unfold blkN
  rw [dif_pos (pcN_lt c s r)]
  rfl

/-- The argument, whole, is its blocks grouped by SparseCore, position and piece. -/
theorem xPts_regroup (d : Dev nD) (f : Buf (Elt F) (xLoc d)) :
    (xLoc d ↦{fullShare} f : sProp 𝕄) = bigSep Finset.univ fun c : Fin 2 => bigSep Finset.univ fun s : Fin 16 => bigSep Finset.univ fun r : Fin 4 => xLoc d ↦[blkN (pcN c.val s.val r.val)]{fullShare} f := by
  have h1 : (xLoc d ↦{fullShare} f : sProp 𝕄) = bigSep Finset.univ fun n : Fin 128 => xLoc d ↦[blk n]{fullShare} f := by
    rw [← pointsTo_biUnion Finset.univ (ℓ := xLoc d) blk blk_disjoint, blk_cover]; try rfl
  rw [h1, bigSep_univ_equiv blkEquiv, bigSep_univ_prod, bigSep_univ_prod]
  refine bigSep_congr fun c _ => bigSep_congr fun s _ => bigSep_congr fun r _ => ?_
  rw [blkN_pcN]

/-- The result, whole, is its blocks grouped by SparseCore, position and piece. -/
theorem oPts_regroup (d : Dev nD) (f : Buf (Elt F) (oLoc d)) :
    (oLoc d ↦{fullShare} f : sProp 𝕄) = bigSep Finset.univ fun c : Fin 2 => bigSep Finset.univ fun s : Fin 16 => bigSep Finset.univ fun r : Fin 4 => oLoc d ↦[blkN (pcN c.val s.val r.val)]{fullShare} f := by
  have h1 : (oLoc d ↦{fullShare} f : sProp 𝕄) = bigSep Finset.univ fun n : Fin 128 => oLoc d ↦[blk n]{fullShare} f := by
    rw [← pointsTo_biUnion Finset.univ (ℓ := oLoc d) blk blk_disjoint, blk_cover]; try rfl
  rw [h1, bigSep_univ_equiv blkEquiv, bigSep_univ_prod, bigSep_univ_prod]
  refine bigSep_congr fun c _ => bigSep_congr fun s _ => bigSep_congr fun r _ => ?_
  rw [blkN_pcN]

end Cert.Proof.K

end
-- ==== Proof.K.Launch.lean ====
/-
  The launch: the one SparseCore call of the copy kernel under the launch theorem. The call's operands are the
  argument and the result whole, dealt to the 2 × 16 vector subcores as their four row blocks each and gathered
  back; what comes back is the argument unchanged and the result at the argument with row 1, column 2 set to one.
-/
import proofs.«209185_g61933428412696_cont_9to1_m_910_4_alg».proof.Proof.K.Body
import proofs.«209185_g61933428412696_cont_9to1_m_910_4_alg».proof.Proof.K.Regroup
import Idealize.ShloMosaic.Lib.SparseCore.Launch

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the handshakes carry -/

instance goC_storable (d : Dev nD) (c s : ℕ) : BI.Storable (upEmb : UEmb _ 𝕄) (goC m d c s) := by
  unfold goC; infer_instance
instance tdC_storable (d : Dev nD) (c s : ℕ) : BI.Storable (upEmb : UEmb _ 𝕄) (tdC m d c s) := by
  unfold tdC; infer_instance

/-- The call hands SparseCore `c` the blocks of its sixteen vector subcores, each of them its own four, and takes
    them back; nothing of the launch's is consumed by a kernel's proof. -/
def P : (K (F := F)).Pay (nD := nD) (Val := Elt F) (Name := ℕ) (U := UU) where
  st := fun q d c => bigSep Finset.univ fun i : Fin ((K (F := F)).nSub q) => goC m d c.val i.val
  dn := fun q d c => bigSep Finset.univ fun i : Fin ((K (F := F)).nSub q) => tdC m d c.val i.val
  go := fun _ d c i => goC m d c.val i.val
  td := fun _ d c i => tdC m d c.val i.val
  x := fun _ _ => iprop(emp)

instance P_storable : (P (F := F) m).IsStorable where
  st _ d c := by unfold P; infer_instance
  dn _ d c := by unfold P; infer_instance
  go _ d c i := by unfold P; infer_instance
  td _ d c i := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__copy_assign (coordsV c s)
          xW (Memref.isWhole_whole _) oW (Memref.isWhole_whole _) bW (Memref.isWhole_whole _)
          cc0_scratch1 cc0_scratch2 cc0_scratch3 cc0_scratch4 cc0_scratch5 cc0_scratch6 cc0_scratch7 cc0_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's share of the call IS its sixteen tasks' shares, both ways. -/
theorem vecSplit : (K (F := F)).VecSplit' (P m) 0 := by
  intro d c
  show (bigSep Finset.univ fun i : Fin ((K (F := F)).nSub 0) => goC m d c.val i.val)
    ⊢ |={Set.univ}=> iprop((bigSep Finset.univ fun i : Fin ((K (F := F)).nSub 0) => goC m d c.val i.val)
      ∗ ((bigSep Finset.univ fun i : Fin ((K (F := F)).nSub 0) => tdC m d c.val i.val)
          -∗ bigSep Finset.univ fun i : Fin ((K (F := F)).nSub 0) => tdC m d c.val i.val))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the call takes for the two SparseCores is the two arrays whole. -/
theorem st0_eq (d : Dev nD) : (bigSep Finset.univ fun c : Fin ((K (F := F)).nCore 0) => (P m).st 0 d c)
    = iprop((xLoc d ↦{fullShare} m (xLoc d)) ∗ oLoc d ↦{fullShare} m (oLoc d)) := by
  show (bigSep Finset.univ fun c : Fin 2 => bigSep Finset.univ fun s : Fin 16 => bigSep Finset.univ fun r : Fin 4 =>
      iprop((xLoc d ↦[blkN (pcN c.val s.val r.val)]{fullShare} m (xLoc d)) ∗ oLoc d ↦[blkN (pcN c.val s.val r.val)]{fullShare} m (oLoc d))) = _
  rw [xPts_regroup, oPts_regroup]
  simp only [bigSep_sep']

/-- What it hands back: the argument whole as it was, the result whole at the overwritten copy. -/
theorem dn0_eq (d : Dev nD) : (bigSep Finset.univ fun c : Fin ((K (F := F)).nCore 0) => (P m).dn 0 d c)
    = iprop((xLoc d ↦{fullShare} m (xLoc d)) ∗ oLoc d ↦{fullShare} Cert.Spec.G (m (xLoc d))) := by
  show (bigSep Finset.univ fun c : Fin 2 => bigSep Finset.univ fun s : Fin 16 => bigSep Finset.univ fun r : Fin 4 =>
      iprop((xLoc d ↦[blkN (pcN c.val s.val r.val)]{fullShare} m (xLoc d))
        ∗ oLoc d ↦[blkN (pcN c.val s.val r.val)]{fullShare} Cert.Spec.G (m (xLoc d)))) = _
  rw [xPts_regroup, oPts_regroup]
  simp only [bigSep_sep']

/-- What @main leaves the claim. -/
abbrev FIN (d : Dev nD) : sProp 𝕄 := iprop((xLoc d ↦{fullShare} m (xLoc d)) ∗ oLoc d ↦{fullShare} Cert.Spec.G (m (xLoc d)))

/-- @main on device `d`'s TensorCore: the one call, from the two arrays whole to the two arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  iexact Ho

def fq (d : Dev nD) (s' : Phys nD τ sig (Elt F)) : Prop :=
  s'.mem.mem (xLoc d) = m (xLoc d) ∧ s'.mem.mem (oLoc d) = Cert.Spec.G (m (xLoc d))

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := Cert.Spec.G (m (xLoc d)))) $$ [HSI Ho]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop :=
  fun r => ∀ c : Dev nD, r.2.mem (oLoc c) = Cert.Spec.G (m (xLoc c)) ∧ r.2.mem (xLoc c) = m (xLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2, (h c).1⟩)

end Cert.Proof.K

end
-- ==== Proof.KI.Setup.lean ====
/-
  The copy kernel as the launch theorem sees it, and the row blocks it is handed.

  The 16384 rows are cut into 128 blocks of 128 rows. The vector subcore at SparseCore `c`, position `s` moves
  the four consecutive blocks `8 s + 4 c + r` (`r = 0 … 3`): rows `512 (2 s + c) + 128 r` onwards, first into
  rows `128 r` onwards of its own 512-row scratch, then out to the same rows of the result.
-/
import proofs.«209185_g61933428412696_cont_9to1_m_910_4_alg».proof.Defs
import Idealize.ShloMosaic.Lib.SparseCore.Launch
import Idealize.ShloMosaic.Lib.StableHlo.Run
import Idealize.ShloMosaic.Lib.Pipeline.Kit
import Idealize.ShloMosaic.Lib.Tactic
import proofs.«209185_g61933428412696_cont_9to1_m_910_4_alg».proof.Proof.Gen.KernelIdeal
import proofs.«209185_g61933428412696_cont_9to1_m_910_4_alg».proof.Proof.Gen.KernelIdeal.Skeleton
import proofs.«209185_g61933428412696_cont_9to1_m_910_4_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

abbrev EH : Emb UH (MT nD τ sig (HIx 1) (Elt F) ℕ UU ℕ) := embL

/-! ## The arrays and the row blocks -/

abbrev xLoc (d : Dev nD) : Loc nD τ sig := (SparseCore.T d).loc main_arg0
abbrev oLoc (d : Dev nD) : Loc nD τ sig := (SparseCore.T d).loc main_v0

/-- The argument, the result and a vector subcore's scratch, as the kernel's body is handed them. -/
abbrev xW : Memref sig .scVector .hbm S16384x128 .f32 := Memref.whole main_arg0_scv
abbrev oW : Memref sig .scVector .hbm S16384x128 .f32 := Memref.whole main_v0_scv
abbrev bW : Memref sig .scVector .vmem S512x128 .f32 := Memref.whole cc0_scratch0

theorem hdiv : 128 ∣ S16384x128.size 0 := ⟨128, rfl⟩
/-- Block `n` of the 128: rows `128 n … 128 n + 127`, all columns. -/
abbrev blkR (n : Fin 128) : Rect S16384x128 := Rect.part (s := S16384x128) (a₀ := 0) hdiv n
abbrev blk (n : Fin 128) : Finset S16384x128.Idx := ((xW : Memref sig .scVector .hbm S16384x128 .f32).view.slice (blkR n)).set

theorem blk_eq (n : Fin 128) : blk n = (blkR n).set := by
  show ((View.whole (main_arg0_scv : Ref sig .scVector)).slice (blkR n)).set = _
  rw [View.set_slice]; exact Finset.map_refl
theorem blk_disjoint : ∀ i ∈ (Finset.univ : Finset (Fin 128)), ∀ j ∈ (Finset.univ : Finset (Fin 128)), i ≠ j → Disjoint (blk i) (blk j) :=
  fun i _ j _ h => by rw [blk_eq, blk_eq]; exact Rect.part_disjoint hdiv h
theorem blk_cover : (Finset.univ : Finset (Fin 128)).biUnion blk = Finset.univ :=
  (Finset.biUnion_congr rfl fun i _ => blk_eq i).trans (Rect.biUnion_part hdiv)

theorem mem_blk {n : Fin 128} {i : S16384x128.Idx} : i ∈ blk n ↔ 128 * n.val ≤ (i 0).val ∧ (i 0).val < 128 * n.val + 128 := by
  rw [blk_eq, Rect.mem_set_unit, Fin.forall_fin_two]
  have h1 : (i 1).val < 128 := (i 1).isLt
  have hs : S16384x128.size 0 / 128 = 128 := by decide
  have hs1 : S16384x128.size 1 = 128 := rfl
  have e0 : (![16384, 128] : Fin 2 → ℕ) 0 = 16384 := rfl
  have e1 : (![16384, 128] : Fin 2 → ℕ) 1 = 128 := rfl
  simp only [Shape.partIx, Shape.partSize, if_true, hs, hs1, show ¬ ((1 : Fin 2) = 0) by decide, if_false, e0, e1]
  omega

/-- Block number `n` as a natural: nothing beyond the 128. -/
def blkN (n : ℕ) : Finset S16384x128.Idx := if h : n < 128 then blk ⟨n, h⟩ else ∅

/-- The block that the vector subcore at SparseCore `c`, position `s` moves as its piece `r`. -/
abbrev pcN (c s r : ℕ) : ℕ := 8 * s + 4 * c + r

end Cert.Proof.KI

end
-- ==== Proof.KI.Pieces.lean ====
/-
  The pieces a vector subcore's task moves, named as its body slices them: four 128-row blocks of the argument,
  the same four of the result, and the four quarters of its scratch.
-/
import proofs.«209185_g61933428412696_cont_9to1_m_910_4_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (L : grid0.Coords)

abbrev cV (L : grid0.Coords) : Fin τ.nSC := (L 0).castLE hcore0
abbrev jV (L : grid0.Coords) : Fin τ.nSub := (L 1).castLE hsub0

/-! ## The slices, in the body's spelling -/

abbrev xS0 (L : grid0.Coords) : Memref sig .scVector .hbm S128x128 .f32 :=
  (xW : Memref sig .scVector .hbm S16384x128 .f32).slice (Rect.unit (s := S16384x128) (k0_off1 L 0#32) S128x128.size (k0_off1_inb L 0)) (fun _ => rfl)
abbrev oS0 (L : grid0.Coords) : Memref sig .scVector .hbm S128x128 .f32 :=
  (oW : Memref sig .scVector .hbm S16384x128 .f32).slice (Rect.unit (s := S16384x128) (k0_off1 L 0#32) S128x128.size (k0_off1_inb L 0)) (fun _ => rfl)
abbrev bS0 : Memref sig .scVector .vmem S128x128 .f32 :=
  (bW : Memref sig .scVector .vmem S512x128 .f32).slice (Rect.unit (s := S512x128) ![0, 0] S128x128.size inb_S512x128_S128x128_0_0) (fun _ => rfl)
abbrev xS1 (L : grid0.Coords) : Memref sig .scVector .hbm S128x128 .f32 :=
  (xW : Memref sig .scVector .hbm S16384x128 .f32).slice (Rect.unit (s := S16384x128) (k0_off1 L 128#32) S128x128.size (k0_off1_inb L 1)) (fun _ => rfl)
abbrev oS1 (L : grid0.Coords) : Memref sig .scVector .hbm S128x128 .f32 :=
  (oW : Memref sig .scVector .hbm S16384x128 .f32).slice (Rect.unit (s := S16384x128) (k0_off1 L 128#32) S128x128.size (k0_off1_inb L 1)) (fun _ => rfl)
abbrev bS1 : Memref sig .scVector .vmem S128x128 .f32 :=
  (bW : Memref sig .scVector .vmem S512x128 .f32).slice (Rect.unit (s := S512x128) ![128, 0] S128x128.size inb_S512x128_S128x128_128_0) (fun _ => rfl)
abbrev xS2 (L : grid0.Coords) : Memref sig .scVector .hbm S128x128 .f32 :=
  (xW : Memref sig .scVector .hbm S16384x128 .f32).slice (Rect.unit (s := S16384x128) (k0_off1 L 256#32) S128x128.size (k0_off1_inb L 2)) (fun _ => rfl)
abbrev oS2 (L : grid0.Coords) : Memref sig .scVector .hbm S128x128 .f32 :=
  (oW : Memref sig .scVector .hbm S16384x128 .f32).slice (Rect.unit (s := S16384x128) (k0_off1 L 256#32) S128x128.size (k0_off1_inb L 2)) (fun _ => rfl)
abbrev bS2 : Memref sig .scVector .vmem S128x128 .f32 :=
  (bW : Memref sig .scVector .vmem S512x128 .f32).slice (Rect.unit (s := S512x128) ![256, 0] S128x128.size inb_S512x128_S128x128_256_0) (fun _ => rfl)
abbrev xS3 (L : grid0.Coords) : Memref sig .scVector .hbm S128x128 .f32 :=
  (xW : Memref sig .scVector .hbm S16384x128 .f32).slice (Rect.unit (s := S16384x128) (k0_off1 L 384#32) S128x128.size (k0_off1_inb L 3)) (fun _ => rfl)
abbrev oS3 (L : grid0.Coords) : Memref sig .scVector .hbm S128x128 .f32 :=
  (oW : Memref sig .scVector .hbm S16384x128 .f32).slice (Rect.unit (s := S16384x128) (k0_off1 L 384#32) S128x128.size (k0_off1_inb L 3)) (fun _ => rfl)
abbrev bS3 : Memref sig .scVector .vmem S128x128 .f32 :=
  (bW : Memref sig .scVector .vmem S512x128 .f32).slice (Rect.unit (s := S512x128) ![384, 0] S128x128.size inb_S512x128_S128x128_384_0) (fun _ => rfl)

/-! ## The blocks of the argument and of the result -/

theorem pc_lt (r : Fin 4) : pcN (L 0).val (L 1).val r.val < 128 := by
  have h0 : (L 0).val < 2 := (L 0).isLt
  have h1 : (L 1).val < 16 := (L 1).isLt
  have hr := r.isLt
  unfold pcN; omega

/-- The rectangle the body slices for piece `r` is block `8 s + 4 c + r`. -/
theorem rect_eq (r : Fin 4) :
    Rect.unit (s := S16384x128) (k0_off1 L (BitVec.ofNat 32 (128 * r.val))) S128x128.size (k0_off1_inb L r)
      = blkR ⟨pcN (L 0).val (L 1).val r.val, pc_lt L r⟩ := by
  unfold blkR Rect.part Rect.block
  congr 1 <;> funext a
  · rw [k0_off1_eq]
    match a with
    | 0 => simp [Shape.partIx, Shape.partSize, pcN]; omega
    | 1 => simp [Shape.partIx, Shape.partSize]
  · match a with
    | 0 => simp [Shape.partSize]
    | 1 => simp [Shape.partSize]

theorem oblk_eq (n : Fin 128) : ((oW : Memref sig .scVector .hbm S16384x128 .f32).view.slice (blkR n)).set = blk n := by
  rw [blk_eq]
  show ((View.whole (main_v0_scv : Ref sig .scVector)).slice (blkR n)).set = _
  rw [View.set_slice]; exact Finset.map_refl

theorem blkN_pc (r : Fin 4) : blkN (pcN (L 0).val (L 1).val r.val) = blk ⟨pcN (L 0).val (L 1).val r.val, pc_lt L r⟩ := by
  unfold blkN; rw [dif_pos (pc_lt L r)]

theorem set_xS0 : (xS0 L).view.set = blkN (pcN (L 0).val (L 1).val 0) := by
  show ((xW : Memref sig .scVector .hbm S16384x128 .f32).view.slice
    (Rect.unit (s := S16384x128) (k0_off1 L (BitVec.ofNat 32 (128 * (0 : Fin 4).val))) S128x128.size (k0_off1_inb L 0))).set = _
  rw [rect_eq L 0]; exact (blkN_pc L 0).symm
theorem set_oS0 : (oS0 L).view.set = blkN (pcN (L 0).val (L 1).val 0) := by
  show ((oW : Memref sig .scVector .hbm S16384x128 .f32).view.slice
    (Rect.unit (s := S16384x128) (k0_off1 L (BitVec.ofNat 32 (128 * (0 : Fin 4).val))) S128x128.size (k0_off1_inb L 0))).set = _
  rw [rect_eq L 0, oblk_eq]; exact (blkN_pc L 0).symm
theorem set_xS1 : (xS1 L).view.set = blkN (pcN (L 0).val (L 1).val 1) := by
  show ((xW : Memref sig .scVector .hbm S16384x128 .f32).view.slice
    (Rect.unit (s := S16384x128) (k0_off1 L (BitVec.ofNat 32 (128 * (1 : Fin 4).val))) S128x128.size (k0_off1_inb L 1))).set = _
  rw [rect_eq L 1]; exact (blkN_pc L 1).symm
theorem set_oS1 : (oS1 L).view.set = blkN (pcN (L 0).val (L 1).val 1) := by
  show ((oW : Memref sig .scVector .hbm S16384x128 .f32).view.slice
    (Rect.unit (s := S16384x128) (k0_off1 L (BitVec.ofNat 32 (128 * (1 : Fin 4).val))) S128x128.size (k0_off1_inb L 1))).set = _
  rw [rect_eq L 1, oblk_eq]; exact (blkN_pc L 1).symm
theorem set_xS2 : (xS2 L).view.set = blkN (pcN (L 0).val (L 1).val 2) := by
  show ((xW : Memref sig .scVector .hbm S16384x128 .f32).view.slice
    (Rect.unit (s := S16384x128) (k0_off1 L (BitVec.ofNat 32 (128 * (2 : Fin 4).val))) S128x128.size (k0_off1_inb L 2))).set = _
  rw [rect_eq L 2]; exact (blkN_pc L 2).symm
theorem set_oS2 : (oS2 L).view.set = blkN (pcN (L 0).val (L 1).val 2) := by
  show ((oW : Memref sig .scVector .hbm S16384x128 .f32).view.slice
    (Rect.unit (s := S16384x128) (k0_off1 L (BitVec.ofNat 32 (128 * (2 : Fin 4).val))) S128x128.size (k0_off1_inb L 2))).set = _
  rw [rect_eq L 2, oblk_eq]; exact (blkN_pc L 2).symm
theorem set_xS3 : (xS3 L).view.set = blkN (pcN (L 0).val (L 1).val 3) := by
  show ((xW : Memref sig .scVector .hbm S16384x128 .f32).view.slice
    (Rect.unit (s := S16384x128) (k0_off1 L (BitVec.ofNat 32 (128 * (3 : Fin 4).val))) S128x128.size (k0_off1_inb L 3))).set = _
  rw [rect_eq L 3]; exact (blkN_pc L 3).symm
theorem set_oS3 : (oS3 L).view.set = blkN (pcN (L 0).val (L 1).val 3) := by
  show ((oW : Memref sig .scVector .hbm S16384x128 .f32).view.slice
    (Rect.unit (s := S16384x128) (k0_off1 L (BitVec.ofNat 32 (128 * (3 : Fin 4).val))) S128x128.size (k0_off1_inb L 3))).set = _
  rw [rect_eq L 3, oblk_eq]; exact (blkN_pc L 3).symm

/-! ## The quarters of the scratch -/

theorem hdiv4 : 4 ∣ S512x128.size 0 := ⟨128, rfl⟩
abbrev qR (r : Fin 4) : Rect S512x128 := Rect.part (s := S512x128) (a₀ := 0) hdiv4 r
abbrev qSet (r : Fin 4) : Finset S512x128.Idx := ((bW : Memref sig .scVector .vmem S512x128 .f32).view.slice (qR r)).set

theorem qSet_eq (r : Fin 4) : qSet r = (qR r).set := by
  show ((View.whole (cc0_scratch0 : Ref sig .scVector)).slice (qR r)).set = _
  rw [View.set_slice]; exact Finset.map_refl
theorem q_disjoint : ∀ i ∈ (Finset.univ : Finset (Fin 4)), ∀ j ∈ (Finset.univ : Finset (Fin 4)), i ≠ j → Disjoint (qSet i) (qSet j) :=
  fun i _ j _ h => by rw [qSet_eq, qSet_eq]; exact Rect.part_disjoint hdiv4 h
theorem q_cover : (Finset.univ : Finset (Fin 4)).biUnion qSet = Finset.univ :=
  (Finset.biUnion_congr rfl fun i _ => qSet_eq i).trans (Rect.biUnion_part hdiv4)

theorem qrect0 : Rect.unit (s := S512x128) ![0, 0] S128x128.size inb_S512x128_S128x128_0_0 = qR 0 := by
  unfold qR Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem set_bS0 : (bS0).view.set = qSet 0 := by
  show ((bW : Memref sig .scVector .vmem S512x128 .f32).view.slice (Rect.unit (s := S512x128) ![0, 0] S128x128.size inb_S512x128_S128x128_0_0)).set = _
  rw [qrect0]
theorem qrect1 : Rect.unit (s := S512x128) ![128, 0] S128x128.size inb_S512x128_S128x128_128_0 = qR 1 := by
  unfold qR Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem set_bS1 : (bS1).view.set = qSet 1 := by
  show ((bW : Memref sig .scVector .vmem S512x128 .f32).view.slice (Rect.unit (s := S512x128) ![128, 0] S128x128.size inb_S512x128_S128x128_128_0)).set = _
  rw [qrect1]
theorem qrect2 : Rect.unit (s := S512x128) ![256, 0] S128x128.size inb_S512x128_S128x128_256_0 = qR 2 := by
  unfold qR Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem set_bS2 : (bS2).view.set = qSet 2 := by
  show ((bW : Memref sig .scVector .vmem S512x128 .f32).view.slice (Rect.unit (s := S512x128) ![256, 0] S128x128.size inb_S512x128_S128x128_256_0)).set = _
  rw [qrect2]
theorem qrect3 : Rect.unit (s := S512x128) ![384, 0] S128x128.size inb_S512x128_S128x128_384_0 = qR 3 := by
  unfold qR Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem set_bS3 : (bS3).view.set = qSet 3 := by
  show ((bW : Memref sig .scVector .vmem S512x128 .f32).view.slice (Rect.unit (s := S512x128) ![384, 0] S128x128.size inb_S512x128_S128x128_384_0)).set = _
  rw [qrect3]

end Cert.Proof.KI

end
-- ==== Proof.KI.Moved.lean ====
/-
  What a block holds after its two moves. A block fetched whole into a quarter of the scratch and sent whole to the same
  rows of the result arrives as it was in the argument; for the block that holds row 1, with the sixteen leading lanes of
  that row rewritten in the scratch between the two moves, it arrives with lane 2 of row 1 replaced by one.
-/
import proofs.«209185_g61933428412696_cont_9to1_m_910_4_alg».proof.Proof.KI.Setup
import proofs.«209185_g61933428412696_cont_9to1_m_910_4_alg».proof.Proof.KI.Pieces
import proofs.«209185_g61933428412696_cont_9to1_m_910_4_alg».proof.Proof.PayAt

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- One whole-shape write through a view leaves the payload under each of the view's indices. -/
theorem writes_whole_emb {sig : RefSig} {κ : Kind} {sp : Space} {s : Shape} {e : EltTy} {Val : EltTy → Type}
    (v : View sig κ sp s e) (f : v.ty.Contents Val) (w : s.Idx → Val e) (y : s.Idx) :
    v.writes Val f [(⟨Rect.whole s, w⟩ : View.Piece Val s e)] (v.emb y) = _root_.cast (congrArg Val v.elt_eq.symm) (w y) := by
  rw [View.writes_singleton]
  have h := View.write_emb_of_mem (v := v.slice (Rect.whole s)) (Val := Val) f w (M := Finset.univ) (x := y) (Finset.mem_univ _)
  have he : (v.slice (Rect.whole s)).emb y = v.emb y := by
    show v.emb ((Rect.whole s).emb y) = v.emb y
    rw [Rect.emb_whole_apply]
  rw [he] at h
  exact h

/-- A 128-row block of the argument, of the result and of the scratch, at any offsets. -/
abbrev xSl (offx : Fin 2 → ℕ) (hx : ∀ a, offx a + S128x128.size a ≤ S16384x128.size a) : Memref sig .scVector .hbm S128x128 .f32 :=
  (xW : Memref sig .scVector .hbm S16384x128 .f32).slice (Rect.unit (s := S16384x128) offx S128x128.size hx) (fun _ => rfl)
abbrev oSl (offx : Fin 2 → ℕ) (hx : ∀ a, offx a + S128x128.size a ≤ S16384x128.size a) : Memref sig .scVector .hbm S128x128 .f32 :=
  (oW : Memref sig .scVector .hbm S16384x128 .f32).slice (Rect.unit (s := S16384x128) offx S128x128.size hx) (fun _ => rfl)
abbrev bSl (offb : Fin 2 → ℕ) (hb : ∀ a, offb a + S128x128.size a ≤ S512x128.size a) : Memref sig .scVector .vmem S128x128 .f32 :=
  (bW : Memref sig .scVector .vmem S512x128 .f32).slice (Rect.unit (s := S512x128) offb S128x128.size hb) (fun _ => rfl)

/-- Fetched and sent on untouched, a block of the result holds the argument's entries. -/
theorem moved (d : Dev nD) (c : Fin τ.nSC) (j : Fin τ.nSub) (offx : Fin 2 → ℕ) (hx : ∀ a, offx a + S128x128.size a ≤ S16384x128.size a)
    (offb : Fin 2 → ℕ) (hb : ∀ a, offb a + S128x128.size a ≤ S512x128.size a)
    (fo : Buf (Elt F) (oLoc d)) (fx : Buf (Elt F) (xLoc d)) (fb : Buf (Elt F) ((V d c j).loc cc0_scratch0))
    (i : S16384x128.Idx) (hi : i ∈ (oSl offx hx).view.set) :
    ((oSl offx hx).view.writes (Elt F) fo
      [⟨Rect.whole S128x128, ReadAs.same.apply (View.read (Elt F) (bSl offb hb).view
        ((bSl offb hb).view.writes (Elt F) fb
          [⟨Rect.whole S128x128, ReadAs.same.apply (View.read (Elt F) (xSl offx hx).view fx)⟩]))⟩]) i
      = fx i := by
  obtain ⟨y, -, rfl⟩ := Finset.mem_map.mp hi
  refine (writes_whole_emb (Val := Elt F) (oSl offx hx).view fo _ y).trans ?_
  rw [ReadAs.apply_same, View.read_apply]
  rw [writes_whole_emb (Val := Elt F) (bSl offb hb).view fb _ y]
  rw [ReadAs.apply_same, View.read_apply]
  simp only [cast_cast, cast_eq]
  rfl

/-- The sixteen leading lanes of row 1 of the scratch. -/
abbrev R16 : Rect S512x128 := Rect.unit (s := S512x128) ![1, 0] S1x16.size inb_S512x128_S1x16_1_0

theorem emb_b (offb : Fin 2 → ℕ) (hb : ∀ a, offb a + S128x128.size a ≤ S512x128.size a) (y : S128x128.Idx) (a : Fin 2) :
    (((bSl offb hb).view.emb y : S512x128.Idx) a).val = offb a + 1 * (y a).val := rfl
theorem emb_o (offx : Fin 2 → ℕ) (hx : ∀ a, offx a + S128x128.size a ≤ S16384x128.size a) (y : S128x128.Idx) (a : Fin 2) :
    (((oSl offx hx).view.emb y : S16384x128.Idx) a).val = offx a + 1 * (y a).val := rfl
theorem emb_16 (z : S1x16.Idx) (a : Fin 2) :
    ((((bW : Memref sig .scVector .vmem S512x128 .f32).access R16).emb z : S512x128.Idx) a).val = (![1, 0] : Fin 2 → ℕ) a + 1 * (z a).val := rfl
theorem idx_16 (z : S1x16.Idx) (a : Fin 2) :
    ((R16.toLoadRect.idx z : S512x128.Idx) a).val = (![1, 0] : Fin 2 → ℕ) a + 1 * (z a).val := rfl

/-- The block that holds row 1, with the leading lanes of that row rewritten between its two moves, holds in the
    result the argument's entries but for one at row 1, lane 2. -/
theorem moved_first (d : Dev nD) (c : Fin τ.nSC) (j : Fin τ.nSub) (offx : Fin 2 → ℕ) (hx : ∀ a, offx a + S128x128.size a ≤ S16384x128.size a)
    (h0 : offx 0 = 0) (h1 : offx 1 = 0) (hb : ∀ a, (![0, 0] : Fin 2 → ℕ) a + S128x128.size a ≤ S512x128.size a)
    (fo : Buf (Elt F) (oLoc d)) (fx : Buf (Elt F) (xLoc d)) (fb : Buf (Elt F) ((V d c j).loc cc0_scratch0))
    (i : S16384x128.Idx) (hi : i ∈ (oSl offx hx).view.set) :
    ((oSl offx hx).view.writes (Elt F) fo
      [⟨Rect.whole S128x128, ReadAs.same.apply (View.read (Elt F) (bSl ![0, 0] hb).view
        (View.write (Elt F) ((bW : Memref sig .scVector .vmem S512x128 .f32).access R16)
          ((bSl ![0, 0] hb).view.writes (Elt F) fb
            [⟨Rect.whole S128x128, ReadAs.same.apply (View.read (Elt F) (xSl offx hx).view fx)⟩])
          (k0_pay1 (View.readAt (Elt F) (bW : Memref sig .scVector .vmem S512x128 .f32).view R16.toLoadRect
            ((bSl ![0, 0] hb).view.writes (Elt F) fb
              [⟨Rect.whole S128x128, ReadAs.same.apply (View.read (Elt F) (xSl offx hx).view fx)⟩])))
          Finset.univ))⟩]) i
      = Cert.Spec.G fx i := by
  obtain ⟨y, -, rfl⟩ := Finset.mem_map.mp hi
  refine (writes_whole_emb (Val := Elt F) (oSl offx hx).view fo _ y).trans ?_
  rw [ReadAs.apply_same, View.read_apply]
  simp only [cast_cast, cast_eq]
  have ho0 := emb_o offx hx y 0
  have ho1 := emb_o offx hx y 1
  rw [h0] at ho0; rw [h1] at ho1
  have hA : ∀ y' : S128x128.Idx, ((bSl ![0, 0] hb).view.writes (Elt F) fb
      [⟨Rect.whole S128x128, ReadAs.same.apply (View.read (Elt F) (xSl offx hx).view fx)⟩]) ((bSl ![0, 0] hb).view.emb y')
        = fx ((oSl offx hx).view.emb y') := by
    intro y'
    rw [writes_whole_emb (Val := Elt F) (bSl ![0, 0] hb).view fb _ y', ReadAs.apply_same, View.read_apply]
    simp only [cast_cast, cast_eq]
    rfl
  by_cases hC : (y 0).val = 1 ∧ (y 1).val < 16
  · -- under the rewritten lanes
    have hz : (bSl ![0, 0] hb).view.emb y
        = ((bW : Memref sig .scVector .vmem S512x128 .f32).access R16).emb (ValueIdx.ix2 (⟨0, by decide⟩ : Fin 1) (⟨(y 1).val, hC.2⟩ : Fin 16)) := by
      funext a; apply Fin.ext
      match a with
      | ⟨0, _⟩ => rw [emb_b, emb_16]; show 0 + 1 * (y 0).val = 1 + 1 * 0; omega
      | ⟨1, _⟩ => rw [emb_b, emb_16]; show 0 + 1 * (y 1).val = 0 + 1 * (y 1).val; rfl
    rw [hz, View.write_emb_of_mem _ _ (Finset.mem_univ _), Cert.PayAt.pay_ki]
    simp only [cast_eq]
    have hidx : (R16.toLoadRect.idx (ValueIdx.ix2 (⟨0, by decide⟩ : Fin 1) (⟨(y 1).val, hC.2⟩ : Fin 16)) : S512x128.Idx)
        = (bSl ![0, 0] hb).view.emb y := by
      funext a; apply Fin.ext
      match a with
      | ⟨0, _⟩ => rw [emb_b, idx_16]; show 1 + 1 * 0 = 0 + 1 * (y 0).val; omega
      | ⟨1, _⟩ => rw [emb_b, idx_16]; show 0 + 1 * (y 1).val = 0 + 1 * (y 1).val; rfl
    by_cases h2 : (y 1).val = 2
    · rw [if_pos (show ((ValueIdx.ix2 (⟨0, by decide⟩ : Fin 1) (⟨(y 1).val, hC.2⟩ : Fin 16)) 1).val = 2 from h2)]
      exact (Cert.Spec.G_hit fx _ (by rw [ho0]; omega) (by rw [ho1]; omega)).symm
    · rw [if_neg (show ¬ ((ValueIdx.ix2 (⟨0, by decide⟩ : Fin 1) (⟨(y 1).val, hC.2⟩ : Fin 16)) 1).val = 2 from h2)]
      rw [View.readAt_apply, View.read_apply]
      simp only [cast_eq]
      rw [Cert.Spec.G_miss fx _ (by rw [ho1]; omega)]
      refine Eq.trans ?_ (hA y)
      exact congrArg _ hidx
  · -- elsewhere in the block
    have hnot : (bSl ![0, 0] hb).view.emb y ∉ ((bW : Memref sig .scVector .vmem S512x128 .f32).access R16).setOn Finset.univ := by
      intro hmem
      rw [View.setOn_univ] at hmem
      obtain ⟨z, -, hz⟩ := Finset.mem_map.mp hmem
      have e0 := congrArg (fun i : S512x128.Idx => (i 0).val) hz
      have e1 := congrArg (fun i : S512x128.Idx => (i 1).val) hz
      simp only [emb_b, emb_16] at e0 e1
      have z0 : (z 0).val < 1 := (z 0).isLt
      have z1 : (z 1).val < 16 := (z 1).isLt
      apply hC
      have e0' : 1 + 1 * (z 0).val = 0 + 1 * (y 0).val := e0
      have e1' : 0 + 1 * (z 1).val = 0 + 1 * (y 1).val := e1
      omega
    rw [View.write_of_not_mem _ _ _ hnot, hA y]
    refine (Cert.Spec.G_miss fx _ ?_).symm
    rw [ho0, ho1]
    intro h; apply hC; omega

end Cert.Proof.KI

end
-- ==== Proof.KI.Body.lean ====
/-
  One vector subcore's task, run once at a symbolic place: four blocks fetched into the quarters of the scratch, each
  waited for and sent on to the same rows of the result; the subcore whose first block holds row 1 overwrites that
  row's lane 2 with one between the first wait and the first send.
-/
import proofs.«209185_g61933428412696_cont_9to1_m_910_4_alg».proof.Proof.KI.Setup
import proofs.«209185_g61933428412696_cont_9to1_m_910_4_alg».proof.Proof.KI.Pieces
import proofs.«209185_g61933428412696_cont_9to1_m_910_4_alg».proof.Proof.PayAt
import proofs.«209185_g61933428412696_cont_9to1_m_910_4_alg».proof.Proof.KI.Moved

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]
variable (d : Dev nD) (L : grid0.Coords)

/-! ## The task's semaphores and its scratch among the subcore's own -/

abbrev cell1 (d : Dev nD) (L : grid0.Coords) : GSem nD τ sig := (V d (cV L) (jV L), SemLoc.dma cc0_scratch1.sem)
abbrev cell2 (d : Dev nD) (L : grid0.Coords) : GSem nD τ sig := (V d (cV L) (jV L), SemLoc.dma cc0_scratch2.sem)
abbrev cell3 (d : Dev nD) (L : grid0.Coords) : GSem nD τ sig := (V d (cV L) (jV L), SemLoc.dma cc0_scratch3.sem)
abbrev cell4 (d : Dev nD) (L : grid0.Coords) : GSem nD τ sig := (V d (cV L) (jV L), SemLoc.dma cc0_scratch4.sem)
abbrev cell5 (d : Dev nD) (L : grid0.Coords) : GSem nD τ sig := (V d (cV L) (jV L), SemLoc.dma cc0_scratch5.sem)
abbrev cell6 (d : Dev nD) (L : grid0.Coords) : GSem nD τ sig := (V d (cV L) (jV L), SemLoc.dma cc0_scratch6.sem)
abbrev cell7 (d : Dev nD) (L : grid0.Coords) : GSem nD τ sig := (V d (cV L) (jV L), SemLoc.dma cc0_scratch7.sem)
abbrev cell8 (d : Dev nD) (L : grid0.Coords) : GSem nD τ sig := (V d (cV L) (jV L), SemLoc.dma cc0_scratch8.sem)

omit [FloatOps F] in
theorem cell_ne {a b : DmaSem sig} (h : a ≠ b) :
    ((V d (cV L) (jV L), SemLoc.dma a) : GSem nD τ sig) ≠ (V d (cV L) (jV L), SemLoc.dma b) :=
  fun e => h (SemLoc.dma.inj (Prod.mk.inj e).2)

/-- What remains of the subcore's own semaphores beside the task's eight. -/
abbrev restCells (d : Dev nD) (L : grid0.Coords) : Finset (GSem nD τ sig) := (((((((((ownCells (V d (cV L) (jV L))).erase (cell1 d L)).erase (cell2 d L)).erase (cell3 d L)).erase (cell4 d L)).erase (cell5 d L)).erase (cell6 d L)).erase (cell7 d L)).erase (cell8 d L))

omit [FloatOps F] in
theorem ownSems0_V :
    (ownSems0 (V d (cV L) (jV L)) : sProp 𝕄)
      = iprop(semVal (cell1 d L) 0 ∗ semVal (cell2 d L) 0 ∗ semVal (cell3 d L) 0 ∗ semVal (cell4 d L) 0 ∗ semVal (cell5 d L) 0 ∗ semVal (cell6 d L) 0 ∗ semVal (cell7 d L) 0 ∗ semVal (cell8 d L) 0
          ∗ bigSep (restCells d L) fun g => semVal g 0) := by
  unfold SparseCore.Cfg.ownSems0
  rw [SparseCore.bigSep_erase' ((mem_ownCells (g := cell1 d L)).mpr ⟨rfl, by show (SemLoc.dma cc0_scratch1.sem : SemLoc sig).isScoped .scVector = true; decide⟩),
    SparseCore.bigSep_erase' (Finset.mem_erase.mpr ⟨cell_ne d L (by decide : (cc0_scratch2.sem : DmaSem sig) ≠ cc0_scratch1.sem), (mem_ownCells (g := cell2 d L)).mpr ⟨rfl, by show (SemLoc.dma cc0_scratch2.sem : SemLoc sig).isScoped .scVector = true; decide⟩⟩),
    SparseCore.bigSep_erase' (Finset.mem_erase.mpr ⟨cell_ne d L (by decide : (cc0_scratch3.sem : DmaSem sig) ≠ cc0_scratch2.sem), Finset.mem_erase.mpr ⟨cell_ne d L (by decide : (cc0_scratch3.sem : DmaSem sig) ≠ cc0_scratch1.sem), (mem_ownCells (g := cell3 d L)).mpr ⟨rfl, by show (SemLoc.dma cc0_scratch3.sem : SemLoc sig).isScoped .scVector = true; decide⟩⟩⟩),
    SparseCore.bigSep_erase' (Finset.mem_erase.mpr ⟨cell_ne d L (by decide : (cc0_scratch4.sem : DmaSem sig) ≠ cc0_scratch3.sem), Finset.mem_erase.mpr ⟨cell_ne d L (by decide : (cc0_scratch4.sem : DmaSem sig) ≠ cc0_scratch2.sem), Finset.mem_erase.mpr ⟨cell_ne d L (by decide : (cc0_scratch4.sem : DmaSem sig) ≠ cc0_scratch1.sem), (mem_ownCells (g := cell4 d L)).mpr ⟨rfl, by show (SemLoc.dma cc0_scratch4.sem : SemLoc sig).isScoped .scVector = true; decide⟩⟩⟩⟩),
    SparseCore.bigSep_erase' (Finset.mem_erase.mpr ⟨cell_ne d L (by decide : (cc0_scratch5.sem : DmaSem sig) ≠ cc0_scratch4.sem), Finset.mem_erase.mpr ⟨cell_ne d L (by decide : (cc0_scratch5.sem : DmaSem sig) ≠ cc0_scratch3.sem), Finset.mem_erase.mpr ⟨cell_ne d L (by decide : (cc0_scratch5.sem : DmaSem sig) ≠ cc0_scratch2.sem), Finset.mem_erase.mpr ⟨cell_ne d L (by decide : (cc0_scratch5.sem : DmaSem sig) ≠ cc0_scratch1.sem), (mem_ownCells (g := cell5 d L)).mpr ⟨rfl, by show (SemLoc.dma cc0_scratch5.sem : SemLoc sig).isScoped .scVector = true; decide⟩⟩⟩⟩⟩),
    SparseCore.bigSep_erase' (Finset.mem_erase.mpr ⟨cell_ne d L (by decide : (cc0_scratch6.sem : DmaSem sig) ≠ cc0_scratch5.sem), Finset.mem_erase.mpr ⟨cell_ne d L (by decide : (cc0_scratch6.sem : DmaSem sig) ≠ cc0_scratch4.sem), Finset.mem_erase.mpr ⟨cell_ne d L (by decide : (cc0_scratch6.sem : DmaSem sig) ≠ cc0_scratch3.sem), Finset.mem_erase.mpr ⟨cell_ne d L (by decide : (cc0_scratch6.sem : DmaSem sig) ≠ cc0_scratch2.sem), Finset.mem_erase.mpr ⟨cell_ne d L (by decide : (cc0_scratch6.sem : DmaSem sig) ≠ cc0_scratch1.sem), (mem_ownCells (g := cell6 d L)).mpr ⟨rfl, by show (SemLoc.dma cc0_scratch6.sem : SemLoc sig).isScoped .scVector = true; decide⟩⟩⟩⟩⟩⟩),
    SparseCore.bigSep_erase' (Finset.mem_erase.mpr ⟨cell_ne d L (by decide : (cc0_scratch7.sem : DmaSem sig) ≠ cc0_scratch6.sem), Finset.mem_erase.mpr ⟨cell_ne d L (by decide : (cc0_scratch7.sem : DmaSem sig) ≠ cc0_scratch5.sem), Finset.mem_erase.mpr ⟨cell_ne d L (by decide : (cc0_scratch7.sem : DmaSem sig) ≠ cc0_scratch4.sem), Finset.mem_erase.mpr ⟨cell_ne d L (by decide : (cc0_scratch7.sem : DmaSem sig) ≠ cc0_scratch3.sem), Finset.mem_erase.mpr ⟨cell_ne d L (by decide : (cc0_scratch7.sem : DmaSem sig) ≠ cc0_scratch2.sem), Finset.mem_erase.mpr ⟨cell_ne d L (by decide : (cc0_scratch7.sem : DmaSem sig) ≠ cc0_scratch1.sem), (mem_ownCells (g := cell7 d L)).mpr ⟨rfl, by show (SemLoc.dma cc0_scratch7.sem : SemLoc sig).isScoped .scVector = true; decide⟩⟩⟩⟩⟩⟩⟩),
    SparseCore.bigSep_erase' (Finset.mem_erase.mpr ⟨cell_ne d L (by decide : (cc0_scratch8.sem : DmaSem sig) ≠ cc0_scratch7.sem), Finset.mem_erase.mpr ⟨cell_ne d L (by decide : (cc0_scratch8.sem : DmaSem sig) ≠ cc0_scratch6.sem), Finset.mem_erase.mpr ⟨cell_ne d L (by decide : (cc0_scratch8.sem : DmaSem sig) ≠ cc0_scratch5.sem), Finset.mem_erase.mpr ⟨cell_ne d L (by decide : (cc0_scratch8.sem : DmaSem sig) ≠ cc0_scratch4.sem), Finset.mem_erase.mpr ⟨cell_ne d L (by decide : (cc0_scratch8.sem : DmaSem sig) ≠ cc0_scratch3.sem), Finset.mem_erase.mpr ⟨cell_ne d L (by decide : (cc0_scratch8.sem : DmaSem sig) ≠ cc0_scratch2.sem), Finset.mem_erase.mpr ⟨cell_ne d L (by decide : (cc0_scratch8.sem : DmaSem sig) ≠ cc0_scratch1.sem), (mem_ownCells (g := cell8 d L)).mpr ⟨rfl, by show (SemLoc.dma cc0_scratch8.sem : SemLoc sig).isScoped .scVector = true; decide⟩⟩⟩⟩⟩⟩⟩⟩)]

omit [FloatOps F] in
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## The pieces as the task's thread addresses them -/

omit [FloatOps F] in
theorem pts_xS0 (f : Buf (Elt F) (xLoc d)) :
    ((xS0 L).view.loc (V d (cV L) (jV L)) ↦[(xS0 L).view.set]{fullShare} f : sProp 𝕄) = xLoc d ↦[blkN (pcN (L 0).val (L 1).val 0)]{fullShare} f := by
  rw [set_xS0]
omit [FloatOps F] in
theorem pts_oS0 (f : Buf (Elt F) (oLoc d)) :
    ((oS0 L).view.loc (V d (cV L) (jV L)) ↦[(oS0 L).view.set]{fullShare} f : sProp 𝕄) = oLoc d ↦[blkN (pcN (L 0).val (L 1).val 0)]{fullShare} f := by
  rw [set_oS0]
omit [FloatOps F] in
theorem pts_bS0 (f : Buf (Elt F) ((V d (cV L) (jV L)).loc cc0_scratch0)) :
    ((bS0).view.loc (V d (cV L) (jV L)) ↦[(bS0).view.set]{fullShare} f : sProp 𝕄) = (V d (cV L) (jV L)).loc cc0_scratch0 ↦[qSet 0]{fullShare} f := by
  rw [set_bS0]
omit [FloatOps F] in
theorem pts_xS1 (f : Buf (Elt F) (xLoc d)) :
    ((xS1 L).view.loc (V d (cV L) (jV L)) ↦[(xS1 L).view.set]{fullShare} f : sProp 𝕄) = xLoc d ↦[blkN (pcN (L 0).val (L 1).val 1)]{fullShare} f := by
  rw [set_xS1]
omit [FloatOps F] in
theorem pts_oS1 (f : Buf (Elt F) (oLoc d)) :
    ((oS1 L).view.loc (V d (cV L) (jV L)) ↦[(oS1 L).view.set]{fullShare} f : sProp 𝕄) = oLoc d ↦[blkN (pcN (L 0).val (L 1).val 1)]{fullShare} f := by
  rw [set_oS1]
omit [FloatOps F] in
theorem pts_bS1 (f : Buf (Elt F) ((V d (cV L) (jV L)).loc cc0_scratch0)) :
    ((bS1).view.loc (V d (cV L) (jV L)) ↦[(bS1).view.set]{fullShare} f : sProp 𝕄) = (V d (cV L) (jV L)).loc cc0_scratch0 ↦[qSet 1]{fullShare} f := by
  rw [set_bS1]
omit [FloatOps F] in
theorem pts_xS2 (f : Buf (Elt F) (xLoc d)) :
    ((xS2 L).view.loc (V d (cV L) (jV L)) ↦[(xS2 L).view.set]{fullShare} f : sProp 𝕄) = xLoc d ↦[blkN (pcN (L 0).val (L 1).val 2)]{fullShare} f := by
  rw [set_xS2]
omit [FloatOps F] in
theorem pts_oS2 (f : Buf (Elt F) (oLoc d)) :
    ((oS2 L).view.loc (V d (cV L) (jV L)) ↦[(oS2 L).view.set]{fullShare} f : sProp 𝕄) = oLoc d ↦[blkN (pcN (L 0).val (L 1).val 2)]{fullShare} f := by
  rw [set_oS2]
omit [FloatOps F] in
theorem pts_bS2 (f : Buf (Elt F) ((V d (cV L) (jV L)).loc cc0_scratch0)) :
    ((bS2).view.loc (V d (cV L) (jV L)) ↦[(bS2).view.set]{fullShare} f : sProp 𝕄) = (V d (cV L) (jV L)).loc cc0_scratch0 ↦[qSet 2]{fullShare} f := by
  rw [set_bS2]
omit [FloatOps F] in
theorem pts_xS3 (f : Buf (Elt F) (xLoc d)) :
    ((xS3 L).view.loc (V d (cV L) (jV L)) ↦[(xS3 L).view.set]{fullShare} f : sProp 𝕄) = xLoc d ↦[blkN (pcN (L 0).val (L 1).val 3)]{fullShare} f := by
  rw [set_xS3]
omit [FloatOps F] in
theorem pts_oS3 (f : Buf (Elt F) (oLoc d)) :
    ((oS3 L).view.loc (V d (cV L) (jV L)) ↦[(oS3 L).view.set]{fullShare} f : sProp 𝕄) = oLoc d ↦[blkN (pcN (L 0).val (L 1).val 3)]{fullShare} f := by
  rw [set_oS3]
omit [FloatOps F] in
theorem pts_bS3 (f : Buf (Elt F) ((V d (cV L) (jV L)).loc cc0_scratch0)) :
    ((bS3).view.loc (V d (cV L) (jV L)) ↦[(bS3).view.set]{fullShare} f : sProp 𝕄) = (V d (cV L) (jV L)).loc cc0_scratch0 ↦[qSet 3]{fullShare} f := by
  rw [set_bS3]

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

omit [FloatOps F] in
/-- The scratch whole is its four quarters. -/
theorem scratch_quarters (f : Buf (Elt F) ((V d (cV L) (jV L)).loc cc0_scratch0)) :
    ((V d (cV L) (jV L)).loc cc0_scratch0 ↦{fullShare} f : sProp 𝕄)
      = iprop(((V d (cV L) (jV L)).loc cc0_scratch0 ↦[qSet 0]{fullShare} f) ∗ ((V d (cV L) (jV L)).loc cc0_scratch0 ↦[qSet 1]{fullShare} f)
          ∗ ((V d (cV L) (jV L)).loc cc0_scratch0 ↦[qSet 2]{fullShare} f) ∗ ((V d (cV L) (jV L)).loc cc0_scratch0 ↦[qSet 3]{fullShare} f)) := by
  rw [← bigSep_fin4 (F := F) (fun r => (V d (cV L) (jV L)).loc cc0_scratch0 ↦[qSet r]{fullShare} f),
    ← pointsTo_biUnion Finset.univ (ℓ := (V d (cV L) (jV L)).loc cc0_scratch0) qSet q_disjoint, q_cover]; try rfl

/-! ## The task -/

/-- The subcore's number `2 s + c`, as the body computes it, and the test that it is zero. -/
abbrev wid (L : grid0.Coords) : BitVec 32 := Scalar.addi (Scalar.muli (BitVec.ofNat 32 (L 1).val) 2#32) (BitVec.ofNat 32 (L 0).val)
abbrev first (L : grid0.Coords) : Prop := Scalar.cmpi .ne (Scalar.extui (Scalar.cmpi .eq (wid L) 0#32)) 0#32 = 1#1

omit [FloatOps F] in
theorem first_iff : ∀ L : grid0.Coords, first L ↔ ((L 0).val = 0 ∧ (L 1).val = 0) := by decide +kernel

/-! ## What the task leaves in its blocks of the result -/

omit [FloatOps F] in
theorem off_first (h : first L) : k0_off1 L 0#32 0 = 0 ∧ k0_off1 L 0#32 1 = 0 := by
  obtain ⟨h0, h1⟩ := (first_iff L).mp h
  have e : k0_off1 L 0#32 = ![1024 * (L 1).val + 512 * (L 0).val + 128 * (0 : Fin 4).val, 0] := k0_off1_eq L (0 : Fin 4)
  rw [e, h0, h1]; exact ⟨rfl, rfl⟩

omit [FloatOps F] in
/-- A block other than the one holding row 1 has no entry in row 1. -/
theorem row_ne_one (r : Fin 4) (h : ¬ first L ∨ 0 < r.val) {i : S16384x128.Idx} (hi : i ∈ blkN (pcN (L 0).val (L 1).val r.val)) :
    ¬ ((i 0).val = 1 ∧ (i 1).val = 2) := by
  rw [blkN_pc L r, mem_blk] at hi
  have hn : 1 ≤ pcN (L 0).val (L 1).val r.val := by
    unfold pcN
    rcases h with h | h
    · have := fun hh => h ((first_iff L).mpr hh)
      by_contra hlt
      exact this ⟨by omega, by omega⟩
    · omega
  intro hrow
  have : 128 * pcN (L 0).val (L 1).val r.val ≤ (i 0).val := hi.1
  omega

theorem o_plain0 (fb : Buf (Elt F) ((V d (cV L) (jV L)).loc cc0_scratch0)) (h : ¬ first L ∨ 0 < (0 : Fin 4).val) :
    ((oS0 L).view.loc (V d (cV L) (jV L)) ↦[(oS0 L).view.set]{fullShare}
      ((oS0 L).view.writes (Elt F) (m (oLoc d))
        [⟨Rect.whole S128x128, ReadAs.same.apply (View.read (Elt F) bS0.view
          (bS0.view.writes (Elt F) fb
            [⟨Rect.whole S128x128, ReadAs.same.apply (View.read (Elt F) (xS0 L).view (m (xLoc d)))⟩]))⟩]) : sProp 𝕄)
      = oLoc d ↦[blkN (pcN (L 0).val (L 1).val 0)]{fullShare} Cert.Spec.G (m (xLoc d)) := by
  rw [← pts_oS0 (F := F) d L]
  refine pointsTo_congr fun i hi => ?_
  refine (moved d (cV L) (jV L) _ _ _ _ (m (oLoc d)) (m (xLoc d)) fb i hi).trans ?_
  refine (Cert.Spec.G_miss _ _ ?_).symm
  rw [set_oS0] at hi
  exact row_ne_one L 0 h hi
theorem o_plain1 (fb : Buf (Elt F) ((V d (cV L) (jV L)).loc cc0_scratch0)) (h : ¬ first L ∨ 0 < (1 : Fin 4).val) :
    ((oS1 L).view.loc (V d (cV L) (jV L)) ↦[(oS1 L).view.set]{fullShare}
      ((oS1 L).view.writes (Elt F) (m (oLoc d))
        [⟨Rect.whole S128x128, ReadAs.same.apply (View.read (Elt F) bS1.view
          (bS1.view.writes (Elt F) fb
            [⟨Rect.whole S128x128, ReadAs.same.apply (View.read (Elt F) (xS1 L).view (m (xLoc d)))⟩]))⟩]) : sProp 𝕄)
      = oLoc d ↦[blkN (pcN (L 0).val (L 1).val 1)]{fullShare} Cert.Spec.G (m (xLoc d)) := by
  rw [← pts_oS1 (F := F) d L]
  refine pointsTo_congr fun i hi => ?_
  refine (moved d (cV L) (jV L) _ _ _ _ (m (oLoc d)) (m (xLoc d)) fb i hi).trans ?_
  refine (Cert.Spec.G_miss _ _ ?_).symm
  rw [set_oS1] at hi
  exact row_ne_one L 1 h hi
theorem o_plain2 (fb : Buf (Elt F) ((V d (cV L) (jV L)).loc cc0_scratch0)) (h : ¬ first L ∨ 0 < (2 : Fin 4).val) :
    ((oS2 L).view.loc (V d (cV L) (jV L)) ↦[(oS2 L).view.set]{fullShare}
      ((oS2 L).view.writes (Elt F) (m (oLoc d))
        [⟨Rect.whole S128x128, ReadAs.same.apply (View.read (Elt F) bS2.view
          (bS2.view.writes (Elt F) fb
            [⟨Rect.whole S128x128, ReadAs.same.apply (View.read (Elt F) (xS2 L).view (m (xLoc d)))⟩]))⟩]) : sProp 𝕄)
      = oLoc d ↦[blkN (pcN (L 0).val (L 1).val 2)]{fullShare} Cert.Spec.G (m (xLoc d)) := by
  rw [← pts_oS2 (F := F) d L]
  refine pointsTo_congr fun i hi => ?_
  refine (moved d (cV L) (jV L) _ _ _ _ (m (oLoc d)) (m (xLoc d)) fb i hi).trans ?_
  refine (Cert.Spec.G_miss _ _ ?_).symm
  rw [set_oS2] at hi
  exact row_ne_one L 2 h hi
theorem o_plain3 (fb : Buf (Elt F) ((V d (cV L) (jV L)).loc cc0_scratch0)) (h : ¬ first L ∨ 0 < (3 : Fin 4).val) :
    ((oS3 L).view.loc (V d (cV L) (jV L)) ↦[(oS3 L).view.set]{fullShare}
      ((oS3 L).view.writes (Elt F) (m (oLoc d))
        [⟨Rect.whole S128x128, ReadAs.same.apply (View.read (Elt F) bS3.view
          (bS3.view.writes (Elt F) fb
            [⟨Rect.whole S128x128, ReadAs.same.apply (View.read (Elt F) (xS3 L).view (m (xLoc d)))⟩]))⟩]) : sProp 𝕄)
      = oLoc d ↦[blkN (pcN (L 0).val (L 1).val 3)]{fullShare} Cert.Spec.G (m (xLoc d)) := by
  rw [← pts_oS3 (F := F) d L]
  refine pointsTo_congr fun i hi => ?_
  refine (moved d (cV L) (jV L) _ _ _ _ (m (oLoc d)) (m (xLoc d)) fb i hi).trans ?_
  refine (Cert.Spec.G_miss _ _ ?_).symm
  rw [set_oS3] at hi
  exact row_ne_one L 3 h hi

theorem o_first0 (fb : Buf (Elt F) ((V d (cV L) (jV L)).loc cc0_scratch0)) (h : first L) :
    ((oS0 L).view.loc (V d (cV L) (jV L)) ↦[(oS0 L).view.set]{fullShare}
      ((oS0 L).view.writes (Elt F) (m (oLoc d))
        [⟨Rect.whole S128x128, ReadAs.same.apply (View.read (Elt F) bS0.view
          (View.write (Elt F) ((bW : Memref sig .scVector .vmem S512x128 .f32).access R16)
            (bS0.view.writes (Elt F) fb
              [⟨Rect.whole S128x128, ReadAs.same.apply (View.read (Elt F) (xS0 L).view (m (xLoc d)))⟩])
            (k0_pay1 (View.readAt (Elt F) (bW : Memref sig .scVector .vmem S512x128 .f32).view R16.toLoadRect
              (bS0.view.writes (Elt F) fb
                [⟨Rect.whole S128x128, ReadAs.same.apply (View.read (Elt F) (xS0 L).view (m (xLoc d)))⟩])))
            Finset.univ))⟩]) : sProp 𝕄)
      = oLoc d ↦[blkN (pcN (L 0).val (L 1).val 0)]{fullShare} Cert.Spec.G (m (xLoc d)) := by
  rw [← pts_oS0 (F := F) d L]
  refine pointsTo_congr fun i hi => ?_
  exact moved_first d (cV L) (jV L) _ _ (off_first L h).1 (off_first L h).2 _ (m (oLoc d)) (m (xLoc d)) fb i hi

omit [FloatOps F] in
/-- The four quarters, whatever each holds, are the scratch whole at some contents. -/
theorem quarters_join (f0 f1 f2 f3 : Buf (Elt F) ((V d (cV L) (jV L)).loc cc0_scratch0)) :
    iprop(((V d (cV L) (jV L)).loc cc0_scratch0 ↦[qSet 0]{fullShare} f0) ∗ ((V d (cV L) (jV L)).loc cc0_scratch0 ↦[qSet 1]{fullShare} f1)
        ∗ ((V d (cV L) (jV L)).loc cc0_scratch0 ↦[qSet 2]{fullShare} f2) ∗ ((V d (cV L) (jV L)).loc cc0_scratch0 ↦[qSet 3]{fullShare} f3))
      ⊢ (iprop(∃ f, (V d (cV L) (jV L)).loc cc0_scratch0 ↦{fullShare} f) : sProp 𝕄) := by
  have hj : bigSep Finset.univ (fun t : Fin 4 => ((V d (cV L) (jV L)).loc cc0_scratch0 ↦[qSet t]{fullShare} (![f0, f1, f2, f3] : Fin 4 → Buf (Elt F) ((V d (cV L) (jV L)).loc cc0_scratch0)) t : sProp 𝕄))
      ⊢ (iprop(∃ g, ⌜∀ t ∈ (Finset.univ : Finset (Fin 4)), ∀ i ∈ qSet t, g i = (![f0, f1, f2, f3] : Fin 4 → Buf (Elt F) ((V d (cV L) (jV L)).loc cc0_scratch0)) t i⌝
          ∗ (V d (cV L) (jV L)).loc cc0_scratch0 ↦[(Finset.univ : Finset (Fin 4)).biUnion qSet]{fullShare} g) : sProp 𝕄) :=
    pointsTo_biUnion_join (q := fullShare) (ℓ := (V d (cV L) (jV L)).loc cc0_scratch0) Finset.univ qSet ![f0, f1, f2, f3] f0 q_disjoint
  rw [bigSep_fin4, q_cover] at hj
  refine hj.trans ?_
  iintro ⟨%g, -, Hg⟩
  iexists g; iexact Hg

/-- What the task is handed: its four blocks of the argument and of the result. -/
def goC (d : Dev nD) (c s : ℕ) : sProp 𝕄 :=
  bigSep Finset.univ fun r : Fin 4 => iprop((xLoc d ↦[blkN (pcN c s r.val)]{fullShare} m (xLoc d)) ∗ oLoc d ↦[blkN (pcN c s r.val)]{fullShare} m (oLoc d))
/-- What it hands back: the argument's blocks as they were, the result's at the overwritten copy. -/
def tdC (d : Dev nD) (c s : ℕ) : sProp 𝕄 :=
  bigSep Finset.univ fun r : Fin 4 => iprop((xLoc d ↦[blkN (pcN c s r.val)]{fullShare} m (xLoc d))
    ∗ oLoc d ↦[blkN (pcN c s r.val)]{fullShare} Cert.Spec.G (m (xLoc d)))

theorem tile_body (hF : (K (F := F)).Facts) (O : CellTallies nD τ sig (HIx 1)) (W : Waits sig (HIx 1)) (hO : ∀ g, O g none = 0) :
    iprop(levAts (K (F := F)).L (K (F := F)).lev ∗ emp ∗ goC m d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__copy_assign L xW (Memref.isWhole_whole _) oW (Memref.isWhole_whole _) bW (Memref.isWhole_whole _)
            cc0_scratch1 cc0_scratch2 cc0_scratch3 cc0_scratch4 cc0_scratch5 cc0_scratch6 cc0_scratch7 cc0_scratch8)
          fun _ => iprop(tdC m d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__copy_assign_eq_skeleton]; unfold cc0__copy_assign_skel
  rw [(K (F := F)).scopedBufs_V hF d (cV L) (jV L), SparseCore.Cfg.scopedSems0_V (Val := Elt F) d (cV L) (jV L), ownSems0_V, ownBufs_V]
  unfold goC tdC
  rw [bigSep_fin4, bigSep_fin4]
  iintro ⟨#Hlv, -, ⟨⟨Hx0, Ho0⟩, ⟨Hx1, Ho1⟩, ⟨Hx2, Ho2⟩, ⟨Hx3, Ho3⟩⟩, ⟨⟨%fb, Hb⟩, Hbufs⟩, ⟨Hs1, Hs2, Hs3, Hs4, Hs5, Hs6, Hs7, Hs8, Hsems⟩, HO⟩
  ihave Hmw := ((K (F := F)).mayWaits_none (thr := V d (cV L) (jV L)) hO) $$ Hlv
  ihave Hq := (Entails.of_eq (scratch_quarters (F := F) d L fb)) $$ Hb
  icases Hq with ⟨Hb0, Hb1, Hb2, Hb3⟩
  ihave Hx0' := (Entails.of_eq (pts_xS0 (F := F) d L _).symm) $$ Hx0
  ihave Ho0' := (Entails.of_eq (pts_oS0 (F := F) d L _).symm) $$ Ho0
  ihave Hb0' := (Entails.of_eq (pts_bS0 (F := F) d L _).symm) $$ Hb0
  ihave Hx1' := (Entails.of_eq (pts_xS1 (F := F) d L _).symm) $$ Hx1
  ihave Ho1' := (Entails.of_eq (pts_oS1 (F := F) d L _).symm) $$ Ho1
  ihave Hb1' := (Entails.of_eq (pts_bS1 (F := F) d L _).symm) $$ Hb1
  ihave Hx2' := (Entails.of_eq (pts_xS2 (F := F) d L _).symm) $$ Hx2
  ihave Ho2' := (Entails.of_eq (pts_oS2 (F := F) d L _).symm) $$ Ho2
  ihave Hb2' := (Entails.of_eq (pts_bS2 (F := F) d L _).symm) $$ Hb2
  ihave Hx3' := (Entails.of_eq (pts_xS3 (F := F) d L _).symm) $$ Hx3
  ihave Ho3' := (Entails.of_eq (pts_oS3 (F := F) d L _).symm) $$ Ho3
  ihave Hb3' := (Entails.of_eq (pts_bS3 (F := F) d L _).symm) $$ Hb3
  by_cases hfirst : first L
  ·
    sl_exec
    sl_unfold_run_names
    sl_step
    isplitl [Hx0' Ho0' Hx1' Ho1' Hx2' Ho2' Hx3' Ho3']
    · isplitl [Hx0' Ho0']
      · isplitl [Hx0']
        · iapply (Entails.of_eq (pts_xS0 (F := F) d L _)); iexact Hx0'
        · iapply (Entails.of_eq (o_first0 (F := F) m d L _ hfirst)); iexact Ho0'
      isplitl [Hx1' Ho1']
      · isplitl [Hx1']
        · iapply (Entails.of_eq (pts_xS1 (F := F) d L _)); iexact Hx1'
        · iapply (Entails.of_eq (o_plain1 (F := F) m d L _ (Or.inr (by decide)))); iexact Ho1'
      isplitl [Hx2' Ho2']
      · isplitl [Hx2']
        · iapply (Entails.of_eq (pts_xS2 (F := F) d L _)); iexact Hx2'
        · iapply (Entails.of_eq (o_plain2 (F := F) m d L _ (Or.inr (by decide)))); iexact Ho2'
      · isplitl [Hx3']
        · iapply (Entails.of_eq (pts_xS3 (F := F) d L _)); iexact Hx3'
        · iapply (Entails.of_eq (o_plain3 (F := F) m d L _ (Or.inr (by decide)))); iexact Ho3'
    isplitl [Hb0' Hb1' Hb2' Hb3' Hbufs]
    · isplitl [Hb0' Hb1' Hb2' Hb3']
      · ihave Hb0 := (Entails.of_eq (pts_bS0 (F := F) d L _)) $$ Hb0'
        ihave Hb1 := (Entails.of_eq (pts_bS1 (F := F) d L _)) $$ Hb1'
        ihave Hb2 := (Entails.of_eq (pts_bS2 (F := F) d L _)) $$ Hb2'
        ihave Hb3 := (Entails.of_eq (pts_bS3 (F := F) d L _)) $$ Hb3'
        iapply (quarters_join (F := F) d L _ _ _ _)
        isplitl [Hb0]; · iexact Hb0
        isplitl [Hb1]; · iexact Hb1
        isplitl [Hb2]; · iexact Hb2
        iexact Hb3
      · iexact Hbufs
    isplitl [Hs1 Hs2 Hs3 Hs4 Hs5 Hs6 Hs7 Hs8 Hsems]
    · isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hsems
    iexists _; isplitr
    rotate_left
    · iexact HO
    · ipureintro; intro p hp
      simp only [Finset.mem_insert] at hp
      rcases hp with rfl | rfl | rfl | rfl | rfl | rfl | rfl | rfl | hp
      · exact .inr rfl
      · exact .inr rfl
      · exact .inr rfl
      · exact .inr rfl
      · exact .inr rfl
      · exact .inr rfl
      · exact .inr rfl
      · exact .inr rfl
      · exact .inl hp
  ·
    sl_exec
    sl_unfold_run_names
    sl_step
    isplitl [Hx0' Ho0' Hx1' Ho1' Hx2' Ho2' Hx3' Ho3']
    · isplitl [Hx0' Ho0']
      · isplitl [Hx0']
        · iapply (Entails.of_eq (pts_xS0 (F := F) d L _)); iexact Hx0'
        · iapply (Entails.of_eq (o_plain0 (F := F) m d L _ (Or.inl hfirst))); iexact Ho0'
      isplitl [Hx1' Ho1']
      · isplitl [Hx1']
        · iapply (Entails.of_eq (pts_xS1 (F := F) d L _)); iexact Hx1'
        · iapply (Entails.of_eq (o_plain1 (F := F) m d L _ (Or.inr (by decide)))); iexact Ho1'
      isplitl [Hx2' Ho2']
      · isplitl [Hx2']
        · iapply (Entails.of_eq (pts_xS2 (F := F) d L _)); iexact Hx2'
        · iapply (Entails.of_eq (o_plain2 (F := F) m d L _ (Or.inr (by decide)))); iexact Ho2'
      · isplitl [Hx3']
        · iapply (Entails.of_eq (pts_xS3 (F := F) d L _)); iexact Hx3'
        · iapply (Entails.of_eq (o_plain3 (F := F) m d L _ (Or.inr (by decide)))); iexact Ho3'
    isplitl [Hb0' Hb1' Hb2' Hb3' Hbufs]
    · isplitl [Hb0' Hb1' Hb2' Hb3']
      · ihave Hb0 := (Entails.of_eq (pts_bS0 (F := F) d L _)) $$ Hb0'
        ihave Hb1 := (Entails.of_eq (pts_bS1 (F := F) d L _)) $$ Hb1'
        ihave Hb2 := (Entails.of_eq (pts_bS2 (F := F) d L _)) $$ Hb2'
        ihave Hb3 := (Entails.of_eq (pts_bS3 (F := F) d L _)) $$ Hb3'
        iapply (quarters_join (F := F) d L _ _ _ _)
        isplitl [Hb0]; · iexact Hb0
        isplitl [Hb1]; · iexact Hb1
        isplitl [Hb2]; · iexact Hb2
        iexact Hb3
      · iexact Hbufs
    isplitl [Hs1 Hs2 Hs3 Hs4 Hs5 Hs6 Hs7 Hs8 Hsems]
    · isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hsems
    iexists _; isplitr
    rotate_left
    · iexact HO
    · ipureintro; intro p hp
      simp only [Finset.mem_insert] at hp
      rcases hp with rfl | rfl | rfl | rfl | rfl | rfl | rfl | rfl | hp
      · exact .inr rfl
      · exact .inr rfl
      · exact .inr rfl
      · exact .inr rfl
      · exact .inr rfl
      · exact .inr rfl
      · exact .inr rfl
      · exact .inr rfl
      · exact .inl hp

end Cert.Proof.KI

end
-- ==== Proof.KI.Regroup.lean ====
/-
  The whole array as its 128 row blocks, grouped by the vector subcore that moves them: SparseCore `c`,
  position `s`, piece `r` name block `8 s + 4 c + r`, and every block has exactly one such name.
-/
import proofs.«209185_g61933428412696_cont_9to1_m_910_4_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The block number of SparseCore `c`, position `s`, piece `r` is below 128. -/
theorem pcN_lt (c : Fin 2) (s : Fin 16) (r : Fin 4) : pcN c.val s.val r.val < 128 := by
  have hc := c.isLt; have hs := s.isLt; have hr := r.isLt
  show 8 * s.val + 4 * c.val + r.val < 128
  omega

/-- The numbering of the 128 blocks: `(c, s, r) ↦ 8 s + 4 c + r` is one-to-one onto them, with inverse
    `n ↦ (n / 4 mod 2, n / 8, n mod 4)`. -/
def blkEquiv : (Fin 2 × Fin 16) × Fin 4 ≃ Fin 128 where
  toFun p := ⟨pcN p.1.1.val p.1.2.val p.2.val, pcN_lt p.1.1 p.1.2 p.2⟩
  invFun n := ((⟨n.val / 4 % 2, Nat.mod_lt _ (by decide)⟩, ⟨n.val / 8, by have := n.isLt; omega⟩), ⟨n.val % 4, Nat.mod_lt _ (by decide)⟩)
  left_inv p := by
    obtain ⟨⟨c, s⟩, r⟩ := p
    have hc := c.isLt; have hs := s.isLt; have hr := r.isLt
    refine Prod.ext (Prod.ext (Fin.ext ?_) (Fin.ext ?_)) (Fin.ext ?_)
    · show (8 * s.val + 4 * c.val + r.val) / 4 % 2 = c.val
      omega
    · show (8 * s.val + 4 * c.val + r.val) / 8 = s.val
      omega
    · show (8 * s.val + 4 * c.val + r.val) % 4 = r.val
      omega
  right_inv n := by
    have hn := n.isLt
    refine Fin.ext ?_
    show 8 * (n.val / 8) + 4 * (n.val / 4 % 2) + n.val % 4 = n.val
    omega

theorem blkEquiv_val (c : Fin 2) (s : Fin 16) (r : Fin 4) : (blkEquiv ((c, s), r)).val = pcN c.val s.val r.val := rfl

/-- Block number `8 s + 4 c + r` as a natural is that block. -/
theorem blkN_pcN (c : Fin 2) (s : Fin 16) (r : Fin 4) : blkN (pcN c.val s.val r.val) = blk (blkEquiv ((c, s), r)) := by
  unfold blkN
  rw [dif_pos (pcN_lt c s r)]
  rfl

/-- The argument, whole, is its blocks grouped by SparseCore, position and piece. -/
theorem xPts_regroup (d : Dev nD) (f : Buf (Elt F) (xLoc d)) :
    (xLoc d ↦{fullShare} f : sProp 𝕄) = bigSep Finset.univ fun c : Fin 2 => bigSep Finset.univ fun s : Fin 16 => bigSep Finset.univ fun r : Fin 4 => xLoc d ↦[blkN (pcN c.val s.val r.val)]{fullShare} f := by
  have h1 : (xLoc d ↦{fullShare} f : sProp 𝕄) = bigSep Finset.univ fun n : Fin 128 => xLoc d ↦[blk n]{fullShare} f := by
    rw [← pointsTo_biUnion Finset.univ (ℓ := xLoc d) blk blk_disjoint, blk_cover]; try rfl
  rw [h1, bigSep_univ_equiv blkEquiv, bigSep_univ_prod, bigSep_univ_prod]
  refine bigSep_congr fun c _ => bigSep_congr fun s _ => bigSep_congr fun r _ => ?_
  rw [blkN_pcN]

/-- The result, whole, is its blocks grouped by SparseCore, position and piece. -/
theorem oPts_regroup (d : Dev nD) (f : Buf (Elt F) (oLoc d)) :
    (oLoc d ↦{fullShare} f : sProp 𝕄) = bigSep Finset.univ fun c : Fin 2 => bigSep Finset.univ fun s : Fin 16 => bigSep Finset.univ fun r : Fin 4 => oLoc d ↦[blkN (pcN c.val s.val r.val)]{fullShare} f := by
  have h1 : (oLoc d ↦{fullShare} f : sProp 𝕄) = bigSep Finset.univ fun n : Fin 128 => oLoc d ↦[blk n]{fullShare} f := by
    rw [← pointsTo_biUnion Finset.univ (ℓ := oLoc d) blk blk_disjoint, blk_cover]; try rfl
  rw [h1, bigSep_univ_equiv blkEquiv, bigSep_univ_prod, bigSep_univ_prod]
  refine bigSep_congr fun c _ => bigSep_congr fun s _ => bigSep_congr fun r _ => ?_
  rw [blkN_pcN]

end Cert.Proof.KI

end
-- ==== Proof.KI.Launch.lean ====
/-
  The launch: the one SparseCore call of the copy kernel under the launch theorem. The call's operands are the
  argument and the result whole, dealt to the 2 × 16 vector subcores as their four row blocks each and gathered
  back; what comes back is the argument unchanged and the result at the argument with row 1, column 2 set to one.
-/
import proofs.«209185_g61933428412696_cont_9to1_m_910_4_alg».proof.Proof.KI.Body
import proofs.«209185_g61933428412696_cont_9to1_m_910_4_alg».proof.Proof.KI.Regroup
import Idealize.ShloMosaic.Lib.SparseCore.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the handshakes carry -/

instance goC_storable (d : Dev nD) (c s : ℕ) : BI.Storable (upEmb : UEmb _ 𝕄) (goC m d c s) := by
  unfold goC; infer_instance
instance tdC_storable (d : Dev nD) (c s : ℕ) : BI.Storable (upEmb : UEmb _ 𝕄) (tdC m d c s) := by
  unfold tdC; infer_instance

/-- The call hands SparseCore `c` the blocks of its sixteen vector subcores, each of them its own four, and takes
    them back; nothing of the launch's is consumed by a kernel's proof. -/
def P : (K (F := F)).Pay (nD := nD) (Val := Elt F) (Name := ℕ) (U := UU) where
  st := fun q d c => bigSep Finset.univ fun i : Fin ((K (F := F)).nSub q) => goC m d c.val i.val
  dn := fun q d c => bigSep Finset.univ fun i : Fin ((K (F := F)).nSub q) => tdC m d c.val i.val
  go := fun _ d c i => goC m d c.val i.val
  td := fun _ d c i => tdC m d c.val i.val
  x := fun _ _ => iprop(emp)

instance P_storable : (P (F := F) m).IsStorable where
  st _ d c := by unfold P; infer_instance
  dn _ d c := by unfold P; infer_instance
  go _ d c i := by unfold P; infer_instance
  td _ d c i := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__copy_assign (coordsV c s)
          xW (Memref.isWhole_whole _) oW (Memref.isWhole_whole _) bW (Memref.isWhole_whole _)
          cc0_scratch1 cc0_scratch2 cc0_scratch3 cc0_scratch4 cc0_scratch5 cc0_scratch6 cc0_scratch7 cc0_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-- A SparseCore's share of the call IS its sixteen tasks' shares, both ways. -/
theorem vecSplit : (K (F := F)).VecSplit' (P m) 0 := by
  intro d c
  show (bigSep Finset.univ fun i : Fin ((K (F := F)).nSub 0) => goC m d c.val i.val)
    ⊢ |={Set.univ}=> iprop((bigSep Finset.univ fun i : Fin ((K (F := F)).nSub 0) => goC m d c.val i.val)
      ∗ ((bigSep Finset.univ fun i : Fin ((K (F := F)).nSub 0) => tdC m d c.val i.val)
          -∗ bigSep Finset.univ fun i : Fin ((K (F := F)).nSub 0) => tdC m d c.val i.val))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the call takes for the two SparseCores is the two arrays whole. -/
theorem st0_eq (d : Dev nD) : (bigSep Finset.univ fun c : Fin ((K (F := F)).nCore 0) => (P m).st 0 d c)
    = iprop((xLoc d ↦{fullShare} m (xLoc d)) ∗ oLoc d ↦{fullShare} m (oLoc d)) := by
  show (bigSep Finset.univ fun c : Fin 2 => bigSep Finset.univ fun s : Fin 16 => bigSep Finset.univ fun r : Fin 4 =>
      iprop((xLoc d ↦[blkN (pcN c.val s.val r.val)]{fullShare} m (xLoc d)) ∗ oLoc d ↦[blkN (pcN c.val s.val r.val)]{fullShare} m (oLoc d))) = _
  rw [xPts_regroup, oPts_regroup]
  simp only [bigSep_sep']

/-- What it hands back: the argument whole as it was, the result whole at the overwritten copy. -/
theorem dn0_eq (d : Dev nD) : (bigSep Finset.univ fun c : Fin ((K (F := F)).nCore 0) => (P m).dn 0 d c)
    = iprop((xLoc d ↦{fullShare} m (xLoc d)) ∗ oLoc d ↦{fullShare} Cert.Spec.G (m (xLoc d))) := by
  show (bigSep Finset.univ fun c : Fin 2 => bigSep Finset.univ fun s : Fin 16 => bigSep Finset.univ fun r : Fin 4 =>
      iprop((xLoc d ↦[blkN (pcN c.val s.val r.val)]{fullShare} m (xLoc d))
        ∗ oLoc d ↦[blkN (pcN c.val s.val r.val)]{fullShare} Cert.Spec.G (m (xLoc d)))) = _
  rw [xPts_regroup, oPts_regroup]
  simp only [bigSep_sep']

/-- What @main leaves the claim. -/
abbrev FIN (d : Dev nD) : sProp 𝕄 := iprop((xLoc d ↦{fullShare} m (xLoc d)) ∗ oLoc d ↦{fullShare} Cert.Spec.G (m (xLoc d)))

/-- @main on device `d`'s TensorCore: the one call, from the two arrays whole to the two arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  iexact Ho

def fq (d : Dev nD) (s' : Phys nD τ sig (Elt F)) : Prop :=
  s'.mem.mem (xLoc d) = m (xLoc d) ∧ s'.mem.mem (oLoc d) = Cert.Spec.G (m (xLoc d))

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := Cert.Spec.G (m (xLoc d)))) $$ [HSI Ho]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop :=
  fun r => ∀ c : Dev nD, r.2.mem (oLoc c) = Cert.Spec.G (m (xLoc c)) ∧ r.2.mem (xLoc c) = m (xLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2, (h c).1⟩)

end Cert.Proof.KI

end
-- ==== Proof.lean ====
/-
  The certificate's claim. The kernel copies the 16384 × 128 argument to the result 512 rows per vector subcore, in four
  128-row blocks each moved through the subcore's scratch, and the subcore whose first block holds row 1 overwrites
  lane 2 of that row with one on the way; the reference sets entry (1, 2) of a copy of the argument to one. Both leave
  the same array: the argument with its entry at row 1, column 2 replaced by one. The three programs run to their end
  without a fault and leave the argument as it was; the idealised kernel's text is the kernel's own, so nothing is owed
  for the idealisation.
-/
import proofs.«209185_g61933428412696_cont_9to1_m_910_4_alg».proof.Defs
import proofs.«209185_g61933428412696_cont_9to1_m_910_4_alg».proof.Proof.Gen.Kernel
import proofs.«209185_g61933428412696_cont_9to1_m_910_4_alg».proof.Proof.Gen.Kernel.Skeleton
import proofs.«209185_g61933428412696_cont_9to1_m_910_4_alg».proof.Proof.Gen.KernelIdeal
import proofs.«209185_g61933428412696_cont_9to1_m_910_4_alg».proof.Proof.Gen.KernelIdeal.Skeleton
import proofs.«209185_g61933428412696_cont_9to1_m_910_4_alg».proof.Proof.Gen.ReferenceIdeal
import proofs.«209185_g61933428412696_cont_9to1_m_910_4_alg».proof.Proof.Gen.Pre_finite_inputs
import proofs.«209185_g61933428412696_cont_9to1_m_910_4_alg».proof.Proof.Gen.ReferenceIdeal.Run
import proofs.«209185_g61933428412696_cont_9to1_m_910_4_alg».proof.Proof.Gen.ReferenceIdeal.Read
import proofs.«209185_g61933428412696_cont_9to1_m_910_4_alg».proof.Proof.RefValue
import proofs.«209185_g61933428412696_cont_9to1_m_910_4_alg».proof.Proof.K.Launch
import proofs.«209185_g61933428412696_cont_9to1_m_910_4_alg».proof.Proof.KI.Launch
import Idealize.ShloMosaic.Adequacy
import Idealize.ShloMosaic.Init

noncomputable section

namespace Cert.Proof

open Idealize.ShloMosaic Idealize.SL.Sem

/-- The kernel runs to its end on every subcore and leaves the argument unchanged. -/
theorem frame_k : Cert.frame_Kernel := fun m ρ _ =>
  (θ_run Cert.Kernel.defs _ _).mono (fun _ h c => (h c).2) (Cert.Proof.K.run_main (F := Bits) m ρ)

/-- So does the idealised kernel. -/
theorem frame_ki : Cert.frame_KernelIdeal := fun m ρ _ =>
  (θ_run Cert.KernelIdeal.defs _ _).mono (fun _ h c => (h c).2) (Cert.Proof.KI.run_main (F := Ideal) m ρ)

/-- So does the reference. -/
theorem frame_ri : Cert.frame_ReferenceIdeal := fun m ρ _ =>
  (θ_run Cert.ReferenceIdeal.defs _ _).mono (fun _ h c => (h c).2) (Cert.ReferenceIdeal.Value.run (F := Ideal) m ρ)

/-- The idealised kernel is the kernel's own text: no rewrite to answer for. -/
theorem preserves : Cert.preserves_Kernel_KernelIdeal := trivial

/-- Over the extended reals both programs end with the argument's copy in which entry (1, 2) is one. -/
theorem algebraic : Cert.algebraic_KernelIdeal_ReferenceIdeal := by
  intro m ρ m' ρ' _ hagree
  refine ⟨fun c => Cert.Spec.G (F := Ideal) (m ((c.tc : Thread Cert.KernelIdeal.nD Cert.KernelIdeal.τ).loc Cert.KernelIdeal.main_arg0)), ?_, ?_⟩
  · exact (θ_run Cert.KernelIdeal.defs _ _).mono (fun _ h c => h c) (Cert.Proof.KI.run_main (F := Ideal) m ρ)
  · refine (θ_run Cert.ReferenceIdeal.defs _ _).mono (fun r h c => ⟨?_, (h c).2⟩) (Cert.ReferenceIdeal.Value.run (F := Ideal) m' ρ')
    have e1 : r.2.mem ((c.tc : Thread Cert.ReferenceIdeal.nD Cert.ReferenceIdeal.τ).loc Cert.ReferenceIdeal.main_v3)
        = Cert.Spec.G (F := Ideal) (m' ((c.tc : Thread Cert.ReferenceIdeal.nD Cert.ReferenceIdeal.τ).loc Cert.ReferenceIdeal.main_arg0)) :=
      (h c).1.trans (Cert.RefValue.ref_eq (F := Ideal) _)
    rw [e1, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
